-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x32x20 : Shape := ⟨3, ![80000, 32, 20]⟩
abbrev S64x26 : Shape := ⟨2, ![64, 26]⟩
abbrev S64 : Shape := ⟨1, ![64]⟩
abbrev S80000x4 : Shape := ⟨2, ![80000, 4]⟩
abbrev S80000 : Shape := ⟨1, ![80000]⟩
abbrev S_ : Shape := ⟨0, ![]⟩

class Facts : Prop where
  bcast_S_S80000x32x20 : S_.BroadcastsInDim S80000x32x20 (![] : Fin 0 → Fin S80000x32x20.rank)
  reducesTo_S80000x32x20_S_d0_1_2 : S80000x32x20.ReducesTo [0, 1, 2] S_
  h_S_ : 0 < S_.numel
  bcast_S_S64x26 : S_.BroadcastsInDim S64x26 (![] : Fin 0 → Fin S64x26.rank)
  reducesTo_S64x26_S_d0_1 : S64x26.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S64 .f32 := broadcastInDim S64 ![] bcast_S_S64 main_cst_10
  let main_v30 : IVec S64 1 := cmpf .oge main_arg5 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v28 main_v31
  main_v32

def fn {F : FTy → Type} [FloatOps F] (main_arg0 : FVec F S80000x32x20 .f32) (main_arg1 : FVec F S64x26 .f32) (main_arg2 : FVec F S64 .f32) (main_arg3 : FVec F S64 .f32) (main_arg4 : FVec F S64 .f32) (main_arg5 : FVec F S64 .f32) (main_arg6 : IVec S80000x4 32) (main_arg7 : IVec S80000 32) : IVec S_ 1 :=
  let main_v0 : FVec F S80000x32x20 .f32 := Host.absf main_arg0
  let main_cst : FVec F S_ .f32 := constant S_ .f32 0x7F800000#32
  let main_v1 : FVec F S80000x32x20 .f32 := broadcastInDim S80000x32x20 ![] bcast_S_S80000x32x20 main_cst
  let main_v2 : IVec S80000x32x20 1 := cmpf .olt main_v0 main_v1
  let main_c : IVec S_ 1 := constantI S_ 1 1#1
  let main_v3 : IVec S_ 1 := (fun x v => Host.reduce IntOp.andi x v reducesTo_S80000x32x20_S_d0_1_2 h_S_) main_v2 main_c
  let main_v4 : FVec F S64x26 .f32 := Host.absf main_arg1
  let main_cst_0 : FVec F S_ .f32 := constant S_ .f32 0x7F800000#32
  let main_v5 : FVec F S64x26 .f32 := broadcastInDim S64x26 ![] bcast_S_S64x26 main_cst_0
  let main_v6 : IVec S64x26 1 := cmpf .olt main_v4 main_v5
  let main_c_1 : IVec S_ 1 := constantI S_ 1 1#1
  let main_v7 : IVec S_ 1 := (fun x v => Host.reduce IntOp.andi x v reducesTo_S64x26_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S80000x32x20 : Shape := ⟨3, ![80000, 32, 20]⟩
abbrev S64x26 : Shape := ⟨2, ![64, 26]⟩
abbrev S64 : Shape := ⟨1, ![64]⟩
abbrev S80000x4 : Shape := ⟨2, ![80000, 4]⟩
abbrev S80000 : Shape := ⟨1, ![80000]⟩
abbrev S26x64 : Shape := ⟨2, ![26, 64]⟩
abbrev S80000x1 : Shape := ⟨2, ![80000, 1]⟩
abbrev S80000x64 : Shape := ⟨2, ![80000, 64]⟩
abbrev S200x32x20 : Shape := ⟨3, ![200, 32, 20]⟩
abbrev S200x4 : Shape := ⟨2, ![200, 4]⟩
abbrev S200x1 : Shape := ⟨2, ![200, 1]⟩
abbrev S200x64 : Shape := ⟨2, ![200, 64]⟩
abbrev S200x32x3 : Shape := ⟨3, ![200, 32, 3]⟩
abbrev S200x1x1 : Shape := ⟨3, ![200, 1, 1]⟩
abbrev S200x3 : Shape := ⟨2, ![200, 3]⟩
abbrev S200x1x3 : Shape := ⟨3, ![200, 1, 3]⟩
abbrev S200x32x1 : Shape := ⟨3, ![200, 32, 1]⟩
abbrev S200x32 : Shape := ⟨2, ![200, 32]⟩
abbrev S200x32x26 : Shape := ⟨3, ![200, 32, 26]⟩
abbrev S6400x26 : Shape := ⟨2, ![6400, 26]⟩
abbrev S6400x64 : Shape := ⟨2, ![6400, 64]⟩
abbrev S200x32x64 : Shape := ⟨3, ![200, 32, 64]⟩
abbrev S1x1x64 : Shape := ⟨3, ![1, 1, 64]⟩
abbrev S_ : Shape := ⟨0, ![]⟩
abbrev S4x214272x64 : Shape := ⟨3, ![4, 214272, 64]⟩
abbrev S80000x2 : Shape := ⟨2, ![80000, 2]⟩
abbrev S4x64x214272 : Shape := ⟨3, ![4, 64, 214272]⟩
abbrev S4x64x496x432 : Shape := ⟨4, ![4, 64, 496, 432]⟩

abbrev nBuf : Space → Nat
  | .hbm => 47
  | .vmem => 13
  | .smem => 0
  | _ => 0

abbrev bufTy : (tb : Table) → Fin (tcTables nBuf tb) → BufTy
  | .hbm, ⟨0, _⟩ => ⟨S80000x32x20, .f32⟩
  | .hbm, ⟨1, _⟩ => ⟨S64x26, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S80000x4, .i32⟩
  | .hbm, ⟨7, _⟩ => ⟨S80000, .i32⟩
  | .hbm, ⟨8, _⟩ => ⟨S26x64, .f32⟩
  | .hbm, ⟨9, _⟩ => ⟨S80000, .f32⟩
  | .hbm, ⟨10, _⟩ => ⟨S80000x1, .f32⟩
  | .hbm, ⟨11, _⟩ => ⟨S80000x64, .f32⟩
  | .hbm, ⟨12, _⟩ => ⟨S80000x1, .i32⟩
  | .hbm, ⟨13, _⟩ => ⟨S80000, .i32⟩
  | .hbm, ⟨14, _⟩ => ⟨S80000x1, .i32⟩
  | .hbm, ⟨15, _⟩ => ⟨S80000, .i32⟩
  | .hbm, ⟨16, _⟩ => ⟨S_, .i32⟩
  | .hbm, ⟨17, _⟩ => ⟨S80000, .i32⟩
  | .hbm, ⟨18, _⟩ => ⟨S80000, .i32⟩
  | .hbm, ⟨19, _⟩ => ⟨S80000, .i32⟩
  | .hbm, ⟨20, _⟩ => ⟨S80000x1, .i32⟩
  | .hbm, ⟨21, _⟩ => ⟨S80000, .i32⟩
  | .hbm, ⟨22, _⟩ => ⟨S80000, .i32⟩
  | .hbm, ⟨23, _⟩ => ⟨S80000x1, .i32⟩
  | .hbm, ⟨24, _⟩ => ⟨S80000, .i32⟩
  | .hbm, ⟨25, _⟩ => ⟨S_, .f32⟩
  | .hbm, ⟨26, _⟩ => ⟨S4x214272x64, .f32⟩
  | .hbm, ⟨27, _⟩ => ⟨S_, .i32⟩
  | .hbm, ⟨28, _⟩ => ⟨S80000, .i32⟩
  | .hbm, ⟨29, _⟩ => ⟨S80000, .i1⟩
  | .hbm, ⟨30, _⟩ => ⟨S_, .i32⟩
  | .hbm, ⟨31, _⟩ => ⟨S80000, .i32⟩
  | .hbm, ⟨32, _⟩ => ⟨S80000, .i32⟩
  | .hbm, ⟨33, _⟩ => ⟨S80000, .i32⟩
  | .hbm, ⟨34, _⟩ => ⟨S_, .i32⟩
  | .hbm, ⟨35, _⟩ => ⟨S80000, .i32⟩
  | .hbm, ⟨36, _⟩ => ⟨S80000, .i1⟩
  | .hbm, ⟨37, _⟩ => ⟨S_, .i32⟩
  | .hbm, ⟨38, _⟩ => ⟨S80000, .i32⟩
  | .hbm, ⟨39, _⟩ => ⟨S80000, .i32⟩
  | .hbm, ⟨40, _⟩ => ⟨S80000, .i32⟩
  | .hbm, ⟨41, _⟩ => ⟨S80000x1, .i32⟩
  | .hbm, ⟨42, _⟩ => ⟨S80000x1, .i32⟩
  | .hbm, ⟨43, _⟩ => ⟨S80000x2, .i32⟩
  | .hbm, ⟨44, _⟩ => ⟨S4x214272x64, .f32⟩
  | .hbm, ⟨45, _⟩ => ⟨S4x64x214272, .f32⟩
  | .hbm, ⟨46, _⟩ => ⟨S4x64x496x432, .f32⟩
  | .local _ .vmem, ⟨0, _⟩ => ⟨S200x32x20, .f32⟩
  | .local _ .vmem, ⟨1, _⟩ => ⟨S200x32x20, .f32⟩
  | .local _ .vmem, ⟨2, _⟩ => ⟨S200x4, .i32⟩
  | .local _ .vmem, ⟨3, _⟩ => ⟨S200x4, .i32⟩
  | .local _ .vmem, ⟨4, _⟩ => ⟨S200x1, .f32⟩
  | .local _ .vmem, ⟨5, _⟩ => ⟨S200x1, .f32⟩
  | .local _ .vmem, ⟨6, _⟩ => ⟨S26x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S200x64, .f32⟩
  | .local _ .vmem, ⟨12, _⟩ => ⟨S200x64, .f32⟩
  | _, _ => ⟨S80000x32x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![400], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x32x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S26x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S200x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S64x26_S26x64_1_0 : S64x26.Transposes [1, 0] S26x64
  shapeCasts_S80000_S80000x1 : S80000.ShapeCasts S80000x1
  inb_S200x32x20_S200x32x20_0_0_0 : ∀ a, (![0, 0, 0] : Fin 3 → Nat) a + S200x32x20.size a ≤ S200x32x20.size a
  h_S200x32x20 : 0 < S200x32x20.numel
  slices_S200x32x20_o0_0_0_S200x32x3 : S200x32x20.Slices ![0, 0, 0] S200x32x3
  inb_S200x1_S200x1_0_0 : ∀ a, (![0, 0] : Fin 2 → Nat) a + S200x1.size a ≤ S200x1.size a
  h_S200x1 : 0 < S200x1.numel
  shapeCasts_S200x1_S200x1 : S200x1.ShapeCasts S200x1
  shapeCasts_S200x1_S200x1x1 : S200x1.ShapeCasts S200x1x1
  reduces_S200x32x3_S200x3 : S200x32x3.Reduces [1] S200x3
  shapeCasts_S200x3_S200x1x3 : S200x3.ShapeCasts S200x1x3
  broadcasts_S200x1x1_S200x1x3 : S200x1x1.Broadcasts S200x1x3
  broadcasts_S200x1x3_S200x32x3 : S200x1x3.Broadcasts S200x32x3
  inb_S200x4_S200x4_0_0 : ∀ a, (![0, 0] : Fin 2 → Nat) a + S200x4.size a ≤ S200x4.size a
  h_S200x4 : 0 < S200x4.numel
  slices_S200x32x3_o0_0_0_S200x32x1 : S200x32x3.Slices ![0, 0, 0] S200x32x1
  shapeCasts_S200x32x1_S200x32 : S200x32x1.ShapeCasts S200x32
  slices_S200x4_o0_3_S200x1 : S200x4.Slices ![0, 3] S200x1
  broadcasts_S200x1_S200x32 : S200x1.Broadcasts S200x32
  slices_S200x32x3_o0_0_1_S200x32x1 : S200x32x3.Slices ![0, 0, 1] S200x32x1
  slices_S200x4_o0_2_S200x1 : S200x4.Slices ![0, 2] S200x1
  slices_S200x32x3_o0_0_2_S200x32x1 : S200x32x3.Slices ![0, 0, 2] S200x32x1
  slices_S200x4_o0_1_S200x1 : S200x4.Slices ![0, 1] S200x1
  shapeCasts_S200x32_S200x32x1 : S200x32.ShapeCasts S200x32x1
  concatenates_S200x32x1_S200x32x1_S200x32x1_S200x32x3_d2 : Shape.Concatenates [S200x32x1, S200x32x1, S200x32x1] S200x32x3 2
  concatenates_S200x32x20_S200x32x3_S200x32x3_S200x32x26_d2 : Shape.Concatenates [S200x32x20, S200x32x3, S200x32x3] S200x32x26 2
  shapeCasts_S200x32x26_S6400x26 : S200x32x26.ShapeCasts S6400x26
  bitsLt_bf16_f32 : FTy.bits .bf16 < FTy.bits .f32
  inb_S26x64_S26x64_0_0 : ∀ a, (![0, 0] : Fin 2 → Nat) a + S26x64.size a ≤ S26x64.size a
  h_S26x64 : 0 < S26x64.numel
  shapeCasts_S26x64_S26x64 : S26x64.ShapeCasts S26x64
  shapeCasts_S6400x64_S200x32x64 : S6400x64.ShapeCasts S200x32x64
  inb_S64_S64_0 : ∀ a, (![0] : Fin 1 → Nat) a + S64.size a ≤ S64.size a
  h_S64 : 0 < S64.numel
  shapeCasts_S64_S1x1x64 : S64.ShapeCasts S1x1x64
  broadcasts_S1x1x64_S200x32x64 : S1x1x64.Broadcasts S200x32x64
  reduces_S200x32x64_S200x64 : S200x32x64.Reduces [1] S200x64
  inb_S200x64_S200x64_0_0 : ∀ a, (![0, 0] : Fin 2 → Nat) a + S200x64.size a ≤ S200x64.size a
  h_S200x64 : 0 < S200x64.numel
  slices_S80000x4_S80000x1_0_1 : S80000x4.Slices ![0, 1] S80000x1
  shapeCasts_S80000x1_S80000 : S80000x1.ShapeCasts S80000
  slices_S80000x4_S80000x1_0_2 : S80000x4.Slices ![0, 2] S80000x1
  bcast_S_S80000 : S_.BroadcastsInDim S80000 (![] : Fin 0 → Fin S80000.rank)
  slices_S80000x4_S80000x1_0_3 : S80000x4.Slices ![0, 3] S80000x1
  slices_S80000x4_S80000x1_0_0 : S80000x4.Slices ![0, 0] S80000x1
  bcast_S_S4x214272x64 : S_.BroadcastsInDim S4x214272x64 (![] : Fin 0 → Fin S4x214272x64.rank)
  bcast_S80000_S80000x1_0 : S80000.BroadcastsInDim S80000x1 (![0] : Fin 1 → Fin S80000x1.rank)
  concatenates_S80000x1_S80000x1_S80000x2_d1 : Shape.Concatenates [S80000x1, S80000x1] S80000x2 1
  transposes_S4x214272x64_S4x64x214272_0_2_1 : S4x214272x64.Transposes [0, 2, 1] S4x64x214272
  shapeCasts_S4x64x214272_S4x64x496x432 : S4x64x214272.ShapeCasts S4x64x496x432
  dot_S6400x26_S26x64_S6400x64_1_0_0_1_n_n_wf : DotDims.WF S6400x26 S26x64 S6400x64 [1] [0] [0] [1] [] []
  scatter_S4x214272x64_S80000x2_S80000x64_1_01_01_1_wf : ScatterDims.WF S4x214272x64 S80000x2 S80000x64 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x20.size a ≤ S80000x32x20.size a
  hwx0_0 : ∀ i : grid0.Coords, EltTy.bits .f32 = 32 ∨ (Rect.block (s := S80000x32x20) S200x32x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x4.size a ≤ S80000x4.size a
  hwx0_1 : ∀ i : grid0.Coords, EltTy.bits .i32 = 32 ∨ (Rect.block (s := S80000x4) S200x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x1.size a ≤ S80000x1.size a
  hwx0_2 : ∀ i : grid0.Coords, EltTy.bits .f32 = 32 ∨ (Rect.block (s := S80000x1) S200x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S26x64.size a ≤ S26x64.size a
  hwx0_3 : ∀ i : grid0.Coords, EltTy.bits .f32 = 32 ∨ (Rect.block (s := S26x64) S26x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x64.size a ≤ S80000x64.size a
  hwx0_8 : ∀ i : grid0.Coords, EltTy.bits .f32 = 32 ∨ (Rect.block (s := S80000x64) S200x64.size (cc0_transform_8 i) (hinb0_8 i)).WholeWords (EltTy.packing .f32)

variable [Facts₀]

def dot_S6400x26_S26x64_S6400x64_1_0_0_1_n_n : DotDims S6400x26 S26x64 S6400x64 where
  lhsContracting := [1]
  rhsContracting := [0]
  lhsNonContracting := [0]
  rhsNonContracting := [1]
  lhsBatch := []
  rhsBatch := []
  wf := dot_S6400x26_S26x64_S6400x64_1_0_0_1_n_n_wf
def scatter_S4x214272x64_S80000x2_S80000x64_1_01_01_1 : ScatterDims S4x214272x64 S80000x2 S80000x64 where
  updateWindowDims := [1]
  insertedWindowDims := [0, 1]
  scatterDimsToOperandDims := [0, 1]
  indexVectorDim := 1
  wf := scatter_S4x214272x64_S80000x2_S80000x64_1_01_01_1_wf

abbrev win0_0 : Pipeline.Window sig grid0 :=
  Pipeline.Window.ofSpec (Memref.whole main_arg0) S200x32x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S200x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S26x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S200x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S80000x32x20 : Shape := ⟨3, ![80000, 32, 20]⟩
abbrev S64x26 : Shape := ⟨2, ![64, 26]⟩
abbrev S64 : Shape := ⟨1, ![64]⟩
abbrev S80000x4 : Shape := ⟨2, ![80000, 4]⟩
abbrev S80000 : Shape := ⟨1, ![80000]⟩
abbrev S80000x32x3 : Shape := ⟨3, ![80000, 32, 3]⟩
abbrev S80000x1x1 : Shape := ⟨3, ![80000, 1, 1]⟩
abbrev S_ : Shape := ⟨0, ![]⟩
abbrev S80000x3 : Shape := ⟨2, ![80000, 3]⟩
abbrev S80000x1x3 : Shape := ⟨3, ![80000, 1, 3]⟩
abbrev S80000x32x1 : Shape := ⟨3, ![80000, 32, 1]⟩
abbrev S80000x32 : Shape := ⟨2, ![80000, 32]⟩
abbrev S80000x1 : Shape := ⟨2, ![80000, 1]⟩
abbrev S80000x32x26 : Shape := ⟨3, ![80000, 32, 26]⟩
abbrev S80000x32x64 : Shape := ⟨3, ![80000, 32, 64]⟩
abbrev S1x1x64 : Shape := ⟨3, ![1, 1, 64]⟩
abbrev S80000x64 : Shape := ⟨2, ![80000, 64]⟩
abbrev S4x214272x64 : Shape := ⟨3, ![4, 214272, 64]⟩
abbrev S80000x2 : Shape := ⟨2, ![80000, 2]⟩
abbrev S4x64x214272 : Shape := ⟨3, ![4, 64, 214272]⟩
abbrev S4x64x496x432 : Shape := ⟨4, ![4, 64, 496, 432]⟩

abbrev nBuf : Space → Nat
  | .hbm => 118
  | .vmem => 0
  | .smem => 0
  | _ => 0

abbrev bufTy : (tb : Table) → Fin (tcTables nBuf tb) → BufTy
  | .hbm, ⟨0, _⟩ => ⟨S80000x32x20, .f32⟩
  | .hbm, ⟨1, _⟩ => ⟨S64x26, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S80000x4, .i32⟩
  | .hbm, ⟨7, _⟩ => ⟨S80000, .i32⟩
  | .hbm, ⟨8, _⟩ => ⟨S80000x32x3, .f32⟩
  | .hbm, ⟨9, _⟩ => ⟨S80000, .f32⟩
  | .hbm, ⟨10, _⟩ => ⟨S80000x1x1, .f32⟩
  | .hbm, ⟨11, _⟩ => ⟨S_, .f32⟩
  | .hbm, ⟨12, _⟩ => ⟨S80000x3, .f32⟩
  | .hbm, ⟨13, _⟩ => ⟨S80000x1x3, .f32⟩
  | .hbm, ⟨14, _⟩ => ⟨S80000x1x3, .f32⟩
  | .hbm, ⟨15, _⟩ => ⟨S80000x1x3, .f32⟩
  | .hbm, ⟨16, _⟩ => ⟨S80000x32x3, .f32⟩
  | .hbm, ⟨17, _⟩ => ⟨S80000x32x3, .f32⟩
  | .hbm, ⟨18, _⟩ => ⟨S80000x4, .f32⟩
  | .hbm, ⟨19, _⟩ => ⟨S80000x32x1, .f32⟩
  | .hbm, ⟨20, _⟩ => ⟨S80000x32, .f32⟩
  | .hbm, ⟨21, _⟩ => ⟨S80000x1, .f32⟩
  | .hbm, ⟨22, _⟩ => ⟨S80000, .f32⟩
  | .hbm, ⟨23, _⟩ => ⟨S80000x1, .f32⟩
  | .hbm, ⟨24, _⟩ => ⟨S_, .f32⟩
  | .hbm, ⟨25, _⟩ => ⟨S80000x1, .f32⟩
  | .hbm, ⟨26, _⟩ => ⟨S80000x1, .f32⟩
  | .hbm, ⟨27, _⟩ => ⟨S_, .f32⟩
  | .hbm, ⟨28, _⟩ => ⟨S80000x1, .f32⟩
  | .hbm, ⟨29, _⟩ => ⟨S80000x1, .f32⟩
  | .hbm, ⟨30, _⟩ => ⟨S80000x32, .f32⟩
  | .hbm, ⟨31, _⟩ => ⟨S80000x32, .f32⟩
  | .hbm, ⟨32, _⟩ => ⟨S80000x32x1, .f32⟩
  | .hbm, ⟨33, _⟩ => ⟨S80000x32, .f32⟩
  | .hbm, ⟨34, _⟩ => ⟨S80000x1, .f32⟩
  | .hbm, ⟨35, _⟩ => ⟨S80000, .f32⟩
  | .hbm, ⟨36, _⟩ => ⟨S80000x1, .f32⟩
  | .hbm, ⟨37, _⟩ => ⟨S_, .f32⟩
  | .hbm, ⟨38, _⟩ => ⟨S80000x1, .f32⟩
  | .hbm, ⟨39, _⟩ => ⟨S80000x1, .f32⟩
  | .hbm, ⟨40, _⟩ => ⟨S_, .f32⟩
  | .hbm, ⟨41, _⟩ => ⟨S80000x1, .f32⟩
  | .hbm, ⟨42, _⟩ => ⟨S80000x1, .f32⟩
  | .hbm, ⟨43, _⟩ => ⟨S80000x32, .f32⟩
  | .hbm, ⟨44, _⟩ => ⟨S80000x32, .f32⟩
  | .hbm, ⟨45, _⟩ => ⟨S80000x32x1, .f32⟩
  | .hbm, ⟨46, _⟩ => ⟨S80000x32, .f32⟩
  | .hbm, ⟨47, _⟩ => ⟨S80000x1, .f32⟩
  | .hbm, ⟨48, _⟩ => ⟨S80000, .f32⟩
  | .hbm, ⟨49, _⟩ => ⟨S80000x1, .f32⟩
  | .hbm, ⟨50, _⟩ => ⟨S_, .f32⟩
  | .hbm, ⟨51, _⟩ => ⟨S80000x1, .f32⟩
  | .hbm, ⟨52, _⟩ => ⟨S80000x1, .f32⟩
  | .hbm, ⟨53, _⟩ => ⟨S_, .f32⟩
  | .hbm, ⟨54, _⟩ => ⟨S80000x1, .f32⟩
  | .hbm, ⟨55, _⟩ => ⟨S80000x1, .f32⟩
  | .hbm, ⟨56, _⟩ => ⟨S80000x32, .f32⟩
  | .hbm, ⟨57, _⟩ => ⟨S80000x32, .f32⟩
  | .hbm, ⟨58, _⟩ => ⟨S80000x32x1, .f32⟩
  | .hbm, ⟨59, _⟩ => ⟨S80000x32x1, .f32⟩
  | .hbm, ⟨60, _⟩ => ⟨S80000x32x1, .f32⟩
  | .hbm, ⟨61, _⟩ => ⟨S80000x32x3, .f32⟩
  | .hbm, ⟨62, _⟩ => ⟨S80000x32x26, .f32⟩
  | .hbm, ⟨63, _⟩ => ⟨S80000x32x64, .f32⟩
  | .hbm, ⟨64, _⟩ => ⟨S1x1x64, .f32⟩
  | .hbm, ⟨65, _⟩ => ⟨S80000x32x64, .f32⟩
  | .hbm, ⟨66, _⟩ => ⟨S80000x32x64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S1x1x64, .f32⟩
  | .hbm, ⟨73, _⟩ => ⟨S80000x32x64, .f32⟩
  | .hbm, ⟨74, _⟩ => ⟨S80000x32x64, .f32⟩
  | .hbm, ⟨75, _⟩ => ⟨S1x1x64, .f32⟩
  | .hbm, ⟨76, _⟩ => ⟨S80000x32x64, .f32⟩
  | .hbm, ⟨77, _⟩ => ⟨S80000x32x64, .f32⟩
  | .hbm, ⟨78, _⟩ => ⟨S_, .f32⟩
  | .hbm, ⟨79, _⟩ => ⟨S80000x32x64, .f32⟩
  | .hbm, ⟨80, _⟩ => ⟨S80000x32x64, .f32⟩
  | .hbm, ⟨81, _⟩ => ⟨S_, .f32⟩
  | .hbm, ⟨82, _⟩ => ⟨S80000x64, .f32⟩
  | .hbm, ⟨83, _⟩ => ⟨S80000x1, .i32⟩
  | .hbm, ⟨84, _⟩ => ⟨S80000, .i32⟩
  | .hbm, ⟨85, _⟩ => ⟨S80000x1, .i32⟩
  | .hbm, ⟨86, _⟩ => ⟨S80000, .i32⟩
  | .hbm, ⟨87, _⟩ => ⟨S_, .i32⟩
  | .hbm, ⟨88, _⟩ => ⟨S80000, .i32⟩
  | .hbm, ⟨89, _⟩ => ⟨S80000, .i32⟩
  | .hbm, ⟨90, _⟩ => ⟨S80000, .i32⟩
  | .hbm, ⟨91, _⟩ => ⟨S80000x1, .i32⟩
  | .hbm, ⟨92, _⟩ => ⟨S80000, .i32⟩
  | .hbm, ⟨93, _⟩ => ⟨S80000, .i32⟩
  | .hbm, ⟨94, _⟩ => ⟨S80000x1, .i32⟩
  | .hbm, ⟨95, _⟩ => ⟨S80000, .i32⟩
  | .hbm, ⟨96, _⟩ => ⟨S_, .f32⟩
  | .hbm, ⟨97, _⟩ => ⟨S4x214272x64, .f32⟩
  | .hbm, ⟨98, _⟩ => ⟨S_, .i32⟩
  | .hbm, ⟨99, _⟩ => ⟨S80000, .i32⟩
  | .hbm, ⟨100, _⟩ => ⟨S80000, .i1⟩
  | .hbm, ⟨101, _⟩ => ⟨S_, .i32⟩
  | .hbm, ⟨102, _⟩ => ⟨S80000, .i32⟩
  | .hbm, ⟨103, _⟩ => ⟨S80000, .i32⟩
  | .hbm, ⟨104, _⟩ => ⟨S80000, .i32⟩
  | .hbm, ⟨105, _⟩ => ⟨S_, .i32⟩
  | .hbm, ⟨106, _⟩ => ⟨S80000, .i32⟩
  | .hbm, ⟨107, _⟩ => ⟨S80000, .i1⟩
  | .hbm, ⟨108, _⟩ => ⟨S_, .i32⟩
  | .hbm, ⟨109, _⟩ => ⟨S80000, .i32⟩
  | .hbm, ⟨110, _⟩ => ⟨S80000, .i32⟩
  | .hbm, ⟨111, _⟩ => ⟨S80000, .i32⟩
  | .hbm, ⟨112, _⟩ => ⟨S80000x1, .i32⟩
  | .hbm, ⟨113, _⟩ => ⟨S80000x1, .i32⟩
  | .hbm, ⟨114, _⟩ => ⟨S80000x2, .i32⟩
  | .hbm, ⟨115, _⟩ => ⟨S4x214272x64, .f32⟩
  | .hbm, ⟨116, _⟩ => ⟨S4x64x214272, .f32⟩
  | .hbm, ⟨117, _⟩ => ⟨S4x64x496x432, .f32⟩
  | _, _ => ⟨S80000x32x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call0_cst : Ref sig .tc := ⟨.hbm, 78, rfl⟩
abbrev main_call0_v0 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_c_9 : Ref sig .tc := ⟨.hbm, 98, rfl⟩
abbrev main_v77 : Ref sig .tc := ⟨.hbm, 99, rfl⟩
abbrev main_v78 : Ref sig .tc := ⟨.hbm, 100, rfl⟩
abbrev main_c_10 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_11 : Ref sig .tc := ⟨.hbm, 105, rfl⟩
abbrev main_v82 : Ref sig .tc := ⟨.hbm, 106, rfl⟩
abbrev main_v83 : Ref sig .tc := ⟨.hbm, 107, rfl⟩
abbrev main_c_12 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]

class Facts₀ : Prop where
  slices_S80000x32x20_S80000x32x3_0_0_0 : S80000x32x20.Slices ![0, 0, 0] S80000x32x3
  bcast_S80000_S80000x1x1_0 : S80000.BroadcastsInDim S80000x1x1 (![0] : Fin 1 → Fin S80000x1x1.rank)
  reducesTo_S80000x32x3_S80000x3_d1 : S80000x32x3.ReducesTo [1] S80000x3
  h_S_ : 0 < S_.numel
  bcast_S80000x3_S80000x1x3_0_2 : S80000x3.BroadcastsInDim S80000x1x3 (![0, 2] : Fin 2 → Fin S80000x1x3.rank)
  bcast_S80000x1x1_S80000x1x3_0_1_2 : S80000x1x1.BroadcastsInDim S80000x1x3 (![0, 1, 2] : Fin 3 → Fin S80000x1x3.rank)
  bcast_S80000x1x3_S80000x32x3_0_1_2 : S80000x1x3.BroadcastsInDim S80000x32x3 (![0, 1, 2] : Fin 3 → Fin S80000x32x3.rank)
  slices_S80000x32x3_S80000x32x1_0_0_0 : S80000x32x3.Slices ![0, 0, 0] S80000x32x1
  shapeCasts_S80000x32x1_S80000x32 : S80000x32x1.ShapeCasts S80000x32
  slices_S80000x4_S80000x1_0_3 : S80000x4.Slices ![0, 3] S80000x1
  shapeCasts_S80000x1_S80000 : S80000x1.ShapeCasts S80000
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S80000x1_S80000x32_0_1 : S80000x1.BroadcastsInDim S80000x32 (![0, 1] : Fin 2 → Fin S80000x32.rank)
  slices_S80000x32x3_S80000x32x1_0_0_1 : S80000x32x3.Slices ![0, 0, 1] S80000x32x1
  slices_S80000x4_S80000x1_0_2 : S80000x4.Slices ![0, 2] S80000x1
  slices_S80000x32x3_S80000x32x1_0_0_2 : S80000x32x3.Slices ![0, 0, 2] S80000x32x1
  slices_S80000x4_S80000x1_0_1 : S80000x4.Slices ![0, 1] S80000x1
  bcast_S80000x32_S80000x32x1_0_1 : S80000x32.BroadcastsInDim S80000x32x1 (![0, 1] : Fin 2 → Fin S80000x32x1.rank)
  concatenates_S80000x32x1_S80000x32x1_S80000x32x1_S80000x32x3_d2 : Shape.Concatenates [S80000x32x1, S80000x32x1, S80000x32x1] S80000x32x3 2
  concatenates_S80000x32x20_S80000x32x3_S80000x32x3_S80000x32x26_d2 : Shape.Concatenates [S80000x32x20, S80000x32x3, S80000x32x3] S80000x32x26 2
  bcast_S64_S1x1x64_2 : S64.BroadcastsInDim S1x1x64 (![2] : Fin 1 → Fin S1x1x64.rank)
  bcast_S1x1x64_S80000x32x64_0_1_2 : S1x1x64.BroadcastsInDim S80000x32x64 (![0, 1, 2] : Fin 3 → Fin S80000x32x64.rank)
  bcast_S_S64 : S_.BroadcastsInDim S64 (![] : Fin 0 → Fin S64.rank)
  bcast_S_S80000x32x64 : S_.BroadcastsInDim S80000x32x64 (![] : Fin 0 → Fin S80000x32x64.rank)
  reducesTo_S80000x32x64_S80000x64_d1 : S80000x32x64.ReducesTo [1] S80000x64
  bcast_S_S80000 : S_.BroadcastsInDim S80000 (![] : Fin 0 → Fin S80000.rank)
  slices_S80000x4_S80000x1_0_0 : S80000x4.Slices ![0, 0] S80000x1
  bcast_S_S4x214272x64 : S_.BroadcastsInDim S4x214272x64 (![] : Fin 0 → Fin S4x214272x64.rank)
  concatenates_S80000x1_S80000x1_S80000x2_d1 : Shape.Concatenates [S80000x1, S80000x1] S80000x2 1
  transposes_S4x214272x64_S4x64x214272_0_2_1 : S4x214272x64.Transposes [0, 2, 1] S4x64x214272
  shapeCasts_S4x64x214272_S4x64x496x432 : S4x64x214272.ShapeCasts S4x64x496x432
  dot_S80000x32x26_S64x26_S80000x32x64_2_1_01_0_n_n_wf : DotDims.WF S80000x32x26 S64x26 S80000x32x64 [2] [1] [0, 1] [0] [] []
  scatter_S4x214272x64_S80000x2_S80000x64_1_01_01_1_wf : ScatterDims.WF S4x214272x64 S80000x2 S80000x64 [1] [0, 1] [0, 1] 1

variable [Facts₀]

def dot_S80000x32x26_S64x26_S80000x32x64_2_1_01_0_n_n : DotDims S80000x32x26 S64x26 S80000x32x64 where
  lhsContracting := [2]
  rhsContracting := [1]
  lhsNonContracting := [0, 1]
  rhsNonContracting := [0]
  lhsBatch := []
  rhsBatch := []
  wf := dot_S80000x32x26_S64x26_S80000x32x64_2_1_01_0_n_n_wf
def scatter_S4x214272x64_S80000x2_S80000x64_1_01_01_1 : ScatterDims S4x214272x64 S80000x2 S80000x64 where
  updateWindowDims := [1]
  insertedWindowDims := [0, 1]
  scatterDimsToOperandDims := [0, 1]
  indexVectorDim := 1
  wf := scatter_S4x214272x64_S80000x2_S80000x64_1_01_01_1_wf

class Facts : Prop extends Facts₀ where

variable [Facts]
-- ==== Proof.PreFacts.lean ====
import proofs.«135140_j28037546508649_1_alg».proof.Pre_finite_inputs
import proofs.«135140_j28037546508649_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pfn.PreFacts

open Idealize.ShloMosaic
open Cert.Pre_finite_inputs

/-- A rank-0 shape has exactly one index. -/
instance : Subsingleton S_.Idx := ⟨fun a b => funext fun d => d.elim0⟩

theorem ofBool_eq_one (b : Bool) : BitVec.ofBool b = 1#1 ↔ b = true := by cases b <;> decide

/-- The f32 pattern 0x7F800000 (all-ones exponent, zero significand, sign clear) denotes +∞. -/
theorem top_const : Ideal.ofBits .f32 0x7F800000#32 = ⊤ := by
  simp [Ideal.ofBits, Ideal.ieee]

/-- An extended real whose absolute value max x (-x) is strictly below +∞ is a real: at ⊥ and at ⊤
    the absolute value is ⊤. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The comparison x ≥ 0 that came out true says 0 ≤ x. -/
theorem nonneg_of_ge_zero (x : EReal) (h : Ideal.cmp .oge x 0 = 1#1) : 0 ≤ x := by
  simpa only [Ideal.cmp, ofBool_eq_one, decide_eq_true_eq] using h

/-- all(|a| < +∞) over a length-64 vector: every entry is a real. -/
theorem real_of_all (a : FVec Ideal S64 .f32) (hb : S_.BroadcastsInDim S64 (![] : Fin 0 → Fin S64.rank))
    (hr : S64.ReducesTo [0] S_) (hn : 0 < S_.numel)
    (e : Host.reduce IntOp.andi (cmpf .olt (Host.absf a) (broadcastInDim S64 ![] hb (constant S_ .f32 0x7F800000#32)))
      (constantI S_ 1 1#1) hr hn ValueIdx.ix0 = 1#1) (i : S64.Idx) : ∃ r : ℝ, a i = (r : EReal) := by
  have hi := Host.reduce_andi_all _ _ hr hn _ e i
  apply real_of_abs_lt_top
  rw [← top_const]
  exact hi

/-- all(a ≥ 0) over a length-64 vector: every entry is at least 0. -/
theorem nonneg_of_all (a : FVec Ideal S64 .f32) (hb : S_.BroadcastsInDim S64 (![] : Fin 0 → Fin S64.rank))
    (hr : S64.ReducesTo [0] S_) (hn : 0 < S_.numel)
    (e : Host.reduce IntOp.andi (cmpf .oge a (broadcastInDim S64 ![] hb (constant S_ .f32 0x00000000#32)))
      (constantI S_ 1 1#1) hr hn ValueIdx.ix0 = 1#1) (i : S64.Idx) : 0 ≤ a i := by
  have hi := Host.reduce_andi_all _ _ hr hn _ e i
  apply nonneg_of_ge_zero
  rw [← Ideal.ofBits_zero_f32]
  exact hi

/-- The precondition decoded: the conjunction of the all-reductions being true gives that the four
    length-64 parameter vectors have real entries, and that the last one's entries are nonnegative. -/
theorem of_pre (a0 : FVec Ideal S80000x32x20 .f32) (a1 : FVec Ideal S64x26 .f32) (a2 a3 a4 a5 : FVec Ideal S64 .f32) (a6 : IVec S80000x4 32) (a7 : IVec S80000 32)
    (h : Cert.Pre_finite_inputs.fn (F := Ideal) a0 a1 a2 a3 a4 a5 a6 a7 = fun _ => 1#1) :
    (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal) ∧ 0 ≤ r) := by
  have e := congrFun h ValueIdx.ix0
  dsimp only [Cert.Pre_finite_inputs.fn, Cert.Pre_finite_inputs.fn_part1] at e
  simp only [andi, IntOp.andi_eq_one] at e
  obtain ⟨⟨⟨⟨⟨-, h2⟩, h3⟩, h4⟩, h5⟩, h5'⟩ := e
  refine ⟨real_of_all a2 _ _ _ h2, real_of_all a3 _ _ _ h3, real_of_all a4 _ _ _ h4, fun i => ?_⟩
  obtain ⟨r, hr⟩ := real_of_all a5 _ _ _ h5 i
  have h0 := nonneg_of_all a5 _ _ _ h5' i
  rw [hr] at h0
  exact ⟨r, hr, EReal.coe_nonneg.mp h0⟩

end Cert.Pfn.PreFacts

end
-- ==== Proof.LibConcatLast.lean ====
import Idealize.ShloMosaic.Lib.Pipeline.Value
import Idealize.ShloMosaic.Lib.ValueIdx

/-!
# Three arrays joined along the last axis of a rank-3 array, read at an index

A `concatenate` of three rank-3 arrays of extents `a`, `b`, `c` along axis 2 into one of extent `d = a + b + c`
reads, at `(p, q, k)`, the first array at `(p, q, k)` when `k < a`, the second at `(p, q, k - a)` when `a ≤ k < a + b`,
and the third at `(p, q, k - a - b)` otherwise. The three cases are carried by one combinator, `cat3`, so that two
programs that join the same three families are rewritten to one term.
-/

noncomputable section

namespace Cert.Lib.ConcatLast

open Idealize.ShloMosaic Idealize.ShloMosaic.ValueIdx

variable {α : Type}

/-- Three families laid end to end along one coordinate: `x` on `[0, a)`, `y` on `[a, a + b)`, `z` on `[a + b, d)`. -/
def cat3 {a b c d : Nat} (hd : a + b + c = d) (x : Fin a → α) (y : Fin b → α) (z : Fin c → α) (k : Fin d) : α :=
  if h : k.val < a then x ⟨k.val, h⟩
  else if h2 : k.val < a + b then y ⟨k.val - a, by omega⟩
  else z ⟨k.val - a - b, by have := k.isLt; omega⟩

theorem cat3_congr {a b c d : Nat} (hd : a + b + c = d) {x x' : Fin a → α} {y y' : Fin b → α} {z z' : Fin c → α}
    (hx : ∀ i, x i = x' i) (hy : ∀ i, y i = y' i) (hz : ∀ i, z i = z' i) (k : Fin d) :
    cat3 hd x y z k = cat3 hd x' y' z' k := by
  rw [show x = x' from funext hx, show y = y' from funext hy, show z = z' from funext hz]

/-- A three-operand join along the last axis of a rank-3 array, read at `(p, q, k)`. -/
theorem concat3_last_apply {n0 n1 a b c d : Nat} (hd : a + b + c = d)
    (x : (⟨3, ![n0, n1, a]⟩ : Shape).Idx → α) (y : (⟨3, ![n0, n1, b]⟩ : Shape).Idx → α)
    (z : (⟨3, ![n0, n1, c]⟩ : Shape).Idx → α)
    (h : Shape.Concatenates [(⟨3, ![n0, n1, a]⟩ : Shape), ⟨3, ![n0, n1, b]⟩, ⟨3, ![n0, n1, c]⟩] ⟨3, ![n0, n1, d]⟩ 2)
    (p : Fin n0) (q : Fin n1) (k : Fin d) :
    concatenate (⟨3, ![n0, n1, d]⟩ : Shape) 2
        [⟨(⟨3, ![n0, n1, a]⟩ : Shape), x⟩, ⟨(⟨3, ![n0, n1, b]⟩ : Shape), y⟩, ⟨(⟨3, ![n0, n1, c]⟩ : Shape), z⟩] h (ix3 p q k)
      = cat3 hd (fun i => x (ix3 p q i)) (fun i => y (ix3 p q i)) (fun i => z (ix3 p q i)) k := by
  unfold cat3
  split
  · next h1 =>
    exact concatenate_apply_piece 2 [⟨(⟨3, ![n0, n1, a]⟩ : Shape), x⟩, ⟨(⟨3, ![n0, n1, b]⟩ : Shape), y⟩, ⟨(⟨3, ![n0, n1, c]⟩ : Shape), z⟩] h (ix3 p q k) 0 (by simp) _ x rfl rfl 0 rfl (ix3 p q ⟨k.val, h1⟩)
      (fun b hb => by
        match b with
        | ⟨0, _⟩ => rfl
        | ⟨1, _⟩ => rfl
        | ⟨2, _⟩ => exact absurd rfl hb)
      (by show 0 + k.val = k.val; omega)
  · next h1 =>
    split
    · next h2 =>
      exact concatenate_apply_piece 2 [⟨(⟨3, ![n0, n1, a]⟩ : Shape), x⟩, ⟨(⟨3, ![n0, n1, b]⟩ : Shape), y⟩, ⟨(⟨3, ![n0, n1, c]⟩ : Shape), z⟩] h (ix3 p q k) 1 (by simp) _ y rfl rfl a (by simp) (ix3 p q ⟨k.val - a, by omega⟩)
        (fun b hb => by
          match b with
          | ⟨0, _⟩ => rfl
          | ⟨1, _⟩ => rfl
          | ⟨2, _⟩ => exact absurd rfl hb)
        (by show a + (k.val - a) = k.val; omega)
    · next h2 =>
      exact concatenate_apply_piece 2 [⟨(⟨3, ![n0, n1, a]⟩ : Shape), x⟩, ⟨(⟨3, ![n0, n1, b]⟩ : Shape), y⟩, ⟨(⟨3, ![n0, n1, c]⟩ : Shape), z⟩] h (ix3 p q k) 2 (by simp) _ z rfl rfl (a + b) (by simp)
        (ix3 p q ⟨k.val - a - b, by have := k.isLt; omega⟩)
        (fun b hb => by
          match b with
          | ⟨0, _⟩ => rfl
          | ⟨1, _⟩ => rfl
          | ⟨2, _⟩ => exact absurd rfl hb)
        (by show a + b + (k.val - a - b) = k.val; omega)

end Cert.Lib.ConcatLast

end
-- ==== Proof.Spec.lean ====
import Idealize.ShloMosaic.PureOps.Ideal
import Idealize.ShloMosaic.Lib.ValueIdx
import proofs.«135140_j28037546508649_1_alg».proof.Proof.LibConcatLast

/-!
# The pillar feature network, one pillar at a time

A pillar holds 32 points of 20 channels (`row t k`), a point count `npp` (already a float) and a row of four
integer grid coordinates `cr`. Each point gets 26 features: its 20 channels; its first three channels less their mean
over the pillar (the sum over the 32 points divided by `npp`); and its first three channels less the centre of the
pillar's grid cell, an affine function of the coordinates `cr 3`, `cr 2`, `cr 1`. A linear layer `w` maps the 26
features of a point to one number per output channel; an inference-mode batch norm, a rectifier and the maximum over
the pillar's points follow. The batch norm is written in two ways, `outK` (scale and shift folded) and `outR`
(centred, then scaled); the two agree where the variance is nonnegative and the parameters are finite.
-/

noncomputable section

namespace Cert.Pfn.Spec

open Idealize.ShloMosaic Cert.Lib.ConcatLast

/-- The first three channels of point `t` less the centre of the pillar's cell: x against column 3, y against
    column 2, z against column 1 of the coordinate row. -/
def centre (row : Fin 32 → Fin 20 → EReal) (cr : Fin 4 → BitVec 32) (t : Fin 32) : Fin 3 → EReal :=
  cat3 (a := 1) (b := 1) (c := 1) (d := 3) rfl
    (fun _ => row t ⟨0, by decide⟩
      - (FloatOps.sitofp (F := Ideal) .f32 (cr ⟨3, by decide⟩) * Ideal.ofBits .f32 0x3E23D70A#32 + Ideal.ofBits .f32 0x3DA3D70A#32))
    (fun _ => row t ⟨1, by decide⟩
      - (FloatOps.sitofp (F := Ideal) .f32 (cr ⟨2, by decide⟩) * Ideal.ofBits .f32 0x3E23D70A#32 + Ideal.ofBits .f32 0xC21E6666#32))
    (fun _ => row t ⟨2, by decide⟩
      - (FloatOps.sitofp (F := Ideal) .f32 (cr ⟨1, by decide⟩) * Ideal.ofBits .f32 0x40800000#32 + Ideal.ofBits .f32 0xBF800000#32))

/-- The first three channels of point `t` less their mean over the pillar's points. -/
def cluster (row : Fin 32 → Fin 20 → EReal) (npp : EReal) (t : Fin 32) (i : Fin 3) : EReal :=
  row t ⟨i.val, by omega⟩ - Ideal.div (∑ t' : Fin 32, row t' ⟨i.val, by omega⟩) npp

/-- The 26 features of point `t`: channels, cluster offsets, centre offsets. -/
def feat (row : Fin 32 → Fin 20 → EReal) (npp : EReal) (cr : Fin 4 → BitVec 32) (t : Fin 32) : Fin 26 → EReal :=
  cat3 (a := 20) (b := 3) (c := 3) (d := 26) rfl (row t) (cluster row npp t) (centre row cr t)

/-- The linear layer at one output channel (weights `w`) on point `t`. -/
def lin (row : Fin 32 → Fin 20 → EReal) (npp : EReal) (cr : Fin 4 → BitVec 32) (w : Fin 26 → EReal) (t : Fin 32) : EReal :=
  ∑ c : Fin 26, feat row npp cr t c * w c

/-- Batch norm with the scale `g · rsqrt (v + ε)` and the shift `b - mu · scale` folded, rectifier, maximum over
    the points from `-∞`. -/
def outK (row : Fin 32 → Fin 20 → EReal) (npp : EReal) (cr : Fin 4 → BitVec 32) (w : Fin 26 → EReal)
    (g b mu v : EReal) : EReal :=
  (Finset.univ : Finset (Fin 32)).fold max (Ideal.ofBits .f32 0xFF800000#32) fun t =>
    max (lin row npp cr w t * (g * Ideal.rsqrt (v + Ideal.ofBits .f32 0x3A83126F#32))
      + (b - mu * (g * Ideal.rsqrt (v + Ideal.ofBits .f32 0x3A83126F#32)))) (Ideal.ofBits .f32 0x00000000#32)

/-- Batch norm centred first and scaled by `g / sqrt (v + ε)`, rectifier, maximum over the points from `-∞`. -/
def outR (row : Fin 32 → Fin 20 → EReal) (npp : EReal) (cr : Fin 4 → BitVec 32) (w : Fin 26 → EReal)
    (g b mu v : EReal) : EReal :=
  (Finset.univ : Finset (Fin 32)).fold max (Ideal.ofBits .f32 0xFF800000#32) fun t =>
    max ((lin row npp cr w t - mu) * Ideal.div g (Ideal.sqrt (v + Ideal.ofBits .f32 0x3A83126F#32)) + b)
      (Ideal.ofBits .f32 0x00000000#32)

end Cert.Pfn.Spec

end
-- ==== Proof.BnLaw.lean ====
import Idealize.ShloMosaic.PureOps.Ideal
import Idealize.ShloMosaic.PureOps.Ideal.Laws
noncomputable section
namespace Cert.Pfn.BnLaw
open Idealize.ShloMosaic

/-! Inference-mode batch normalisation written two ways, over the extended reals.

One spelling folds the mean into the offset: `h * s + (b - mu * s)` with the scale
`s = g * rsqrt (v + eps)`; the other centres first: `(h - mu) * s' + b` with
`s' = g / sqrt (v + eps)`.  For a positive real `v + eps` both scales are the same real
number, and for a real scale, mean and offset the two affine maps agree at every extended
real `h`, the infinities included. -/

/-- the f32 word of 1e-3 denotes a positive real -/
theorem eps_pos : ∃ e : ℝ, 0 < e ∧ Ideal.ofBits .f32 0x3A83126F#32 = (e : EReal) := by
  refine ⟨8589935 / 2 ^ 33, by norm_num, ?_⟩
  simp [Ideal.ofBits, Ideal.ieee, -EReal.coe_mul]
  norm_num

/-- the square root of a positive real is the real square root -/
theorem sqrt_coe_pos (v : ℝ) (hv : 0 < v) :
    Ideal.sqrt (v : EReal) = ((Real.sqrt v : ℝ) : EReal) := by
  have h : Ideal.sqrt (v : EReal) = if v < 0 then ⊥ else ((Real.sqrt v : ℝ) : EReal) := rfl
  rw [h, if_neg (not_lt.mpr hv.le)]

/-- the reciprocal square root of a positive real is the real reciprocal of the root -/
theorem rsqrt_coe_pos (v : ℝ) (hv : 0 < v) :
    Ideal.rsqrt (v : EReal) = (((Real.sqrt v)⁻¹ : ℝ) : EReal) := by
  have h : Ideal.rsqrt (v : EReal)
      = if v < 0 then ⊥ else if v = 0 then ⊤ else (((Real.sqrt v)⁻¹ : ℝ) : EReal) := rfl
  rw [h, if_neg (not_lt.mpr hv.le), if_neg hv.ne']

/-- the two spellings of the scale agree on a positive variance: γ / sqrt v = γ * rsqrt v -/
theorem scale_eq (g v : ℝ) (hv : 0 < v) :
    Ideal.div (g : EReal) (Ideal.sqrt (v : EReal)) = (g : EReal) * Ideal.rsqrt (v : EReal) := by
  rw [sqrt_coe_pos v hv, rsqrt_coe_pos v hv]
  have hs : 0 < Real.sqrt v := Real.sqrt_pos.mpr hv
  have hne : ((Real.sqrt v : ℝ) : EReal) ≠ 0 := EReal.coe_ne_zero.mpr hs.ne'
  unfold Ideal.div
  rw [if_neg hne, EReal.coe_inv]

/-- on a positive variance the common scale is a real number -/
theorem scale_real (g v : ℝ) (hv : 0 < v) :
    ∃ s : ℝ, (g : EReal) * Ideal.rsqrt (v : EReal) = (s : EReal) := by
  refine ⟨g * (Real.sqrt v)⁻¹, ?_⟩
  rw [rsqrt_coe_pos v hv, EReal.coe_mul]

/-- the affine map written around the mean equals the one with the folded shift, for every
    extended real `h` (the infinities included), when scale, mean and offset are real -/
theorem affine_eq (h : EReal) (s mu b : ℝ) :
    (h - (mu : EReal)) * (s : EReal) + (b : EReal)
      = h * (s : EReal) + ((b : EReal) - (mu : EReal) * (s : EReal)) := by
  -- the folded shift is a real number
  have hc : (b : EReal) - (mu : EReal) * (s : EReal) = ((b - mu * s : ℝ) : EReal) := by
    rw [EReal.coe_sub, EReal.coe_mul]
  induction h using EReal.rec with
  | bot =>
    rw [hc, EReal.bot_sub]
    rcases lt_trichotomy s 0 with hs | hs | hs
    · rw [EReal.bot_mul_coe_of_neg hs, EReal.top_add_coe, EReal.top_add_coe]
    · subst hs
      rw [EReal.coe_zero, mul_zero, zero_add, zero_add]
      simp
    · rw [EReal.bot_mul_coe_of_pos hs, EReal.bot_add, EReal.bot_add]
  | coe x =>
    rw [hc, ← EReal.coe_sub, ← EReal.coe_mul, ← EReal.coe_mul, ← EReal.coe_add, ← EReal.coe_add]
    congr 1
    ring
  | top =>
    rw [hc, EReal.top_sub_coe]
    rcases lt_trichotomy s 0 with hs | hs | hs
    · rw [EReal.top_mul_coe_of_neg hs, EReal.bot_add, EReal.bot_add]
    · subst hs
      rw [EReal.coe_zero, mul_zero, zero_add, zero_add]
      simp
    · rw [EReal.top_mul_coe_of_pos hs, EReal.top_add_coe, EReal.top_add_coe]

/-- the whole law: with real scale factor, offset and mean, and a nonnegative real variance,
    the folded form equals the centred form at every extended real `h` -/
theorem bn_eq (h g b mu v : EReal) (hg : ∃ r : ℝ, g = r) (hb : ∃ r : ℝ, b = r)
    (hmu : ∃ r : ℝ, mu = r) (hv : ∃ r : ℝ, v = r ∧ 0 ≤ r) :
    h * (g * Ideal.rsqrt (v + Ideal.ofBits .f32 0x3A83126F#32))
        + (b - mu * (g * Ideal.rsqrt (v + Ideal.ofBits .f32 0x3A83126F#32)))
      = (h - mu) * Ideal.div g (Ideal.sqrt (v + Ideal.ofBits .f32 0x3A83126F#32)) + b := by
  obtain ⟨gr, rfl⟩ := hg
  obtain ⟨br, rfl⟩ := hb
  obtain ⟨mr, rfl⟩ := hmu
  obtain ⟨vr, rfl, hvr⟩ := hv
  obtain ⟨e, he, hE⟩ := eps_pos
  rw [hE, ← EReal.coe_add]
  have hpos : 0 < vr + e := by linarith
  rw [scale_eq gr (vr + e) hpos]
  obtain ⟨s, hs⟩ := scale_real gr (vr + e) hpos
  rw [hs]
  exact (affine_eq h s mr br).symm

end Cert.Pfn.BnLaw
end
-- ==== Proof.Bridge.lean ====
import proofs.«135140_j28037546508649_1_alg».proof.Proof.Spec
import proofs.«135140_j28037546508649_1_alg».proof.Proof.BnLaw

/-!
# The folded and the centred form of the pooled value agree

The folded and the centred batch norm give the same pooled value when scale factor, offset and mean are real numbers
and the variance is a nonnegative real: under the maximum over the points the two affine maps agree point by point.
-/

noncomputable section
namespace Cert.Pfn.Bridge
open Idealize.ShloMosaic

/-- with real batch norm parameters and a nonnegative real variance the maximum over the points of the rectified
    folded form equals that of the rectified centred form -/
theorem out_eq (row : Fin 32 → Fin 20 → EReal) (npp : EReal) (cr : Fin 4 → BitVec 32) (w : Fin 26 → EReal)
    (g b mu v : EReal) (hg : ∃ r : ℝ, g = r) (hb : ∃ r : ℝ, b = r) (hmu : ∃ r : ℝ, mu = r)
    (hv : ∃ r : ℝ, v = r ∧ 0 ≤ r) :
    Cert.Pfn.Spec.outK row npp cr w g b mu v = Cert.Pfn.Spec.outR row npp cr w g b mu v := by
  unfold Cert.Pfn.Spec.outK Cert.Pfn.Spec.outR
  exact congrArg (fun f : Fin 32 → EReal => Finset.fold max (Ideal.ofBits .f32 0xFF800000#32) f Finset.univ)
    (funext fun t => congrArg (fun x => max x (Ideal.ofBits .f32 0x00000000#32))
      (Cert.Pfn.BnLaw.bn_eq (Cert.Pfn.Spec.lin row npp cr w t) g b mu v hg hb hmu hv))

end Cert.Pfn.Bridge
end
-- ==== Proof.KernelFeat.lean ====
import proofs.«135140_j28037546508649_1_alg».proof.Proof.Gen.KernelIdeal.Skeleton
import proofs.«135140_j28037546508649_1_alg».proof.Proof.Spec
import proofs.«135140_j28037546508649_1_alg».proof.Proof.LibConcatLast
import Idealize.ShloMosaic.Lib.Pipeline.Value
import Idealize.ShloMosaic.Lib.ValueIdx
import Idealize.ShloMosaic.Lib.ValueLayout
import Idealize.ShloMosaic.PureOps.Ideal.Laws

/-!
# The feature block read at an index

The first part of the kernel body builds, from a pillar block [200, 32, 20], a column of point counts [200, 1] and a
table of integer coordinates [200, 4], the [200, 32, 26] array of point features by slices, reshapes, repeats along an
axis, one sum over the points of a pillar and two joins along the last axis. Each of these is read at an index given
by its coordinates; together they give the array at (p, t, c) as the specification's feature c of point t of pillar p.
-/

noncomputable section

namespace Cert.Pfn.KernelFeat

open Idealize.ShloMosaic Idealize.ShloMosaic.ValueIdx Cert.KernelIdeal Cert.KernelIdeal.Gen

/-! ## The layout operations of the feature block, each read at an index given by its coordinates -/

section Layout
variable {α : Type}

/-- The leading three channels of a [200, 32, 20] block: element (p, t, i) is the block's (p, t, i). -/
theorem slice20_3 (v : S200x32x20.Idx → α) (h : S200x32x20.Slices ![0, 0, 0] S200x32x3) (p : Fin 200) (t : Fin 32) (i : Fin 3) :
    extractStridedSlice S200x32x3 ![0, 0, 0] v h (ix3 p t i) = v (ix3 p t ⟨i.val, by omega⟩) :=
  extractStridedSlice_apply _ v h _ _ fun a => by
    match a with
    | ⟨0, _⟩ => exact (Nat.zero_add _).symm
    | ⟨1, _⟩ => exact (Nat.zero_add _).symm
    | ⟨2, _⟩ => exact (Nat.zero_add _).symm

/-- A one-channel slice of a [200, 32, 3] block starts at a channel below 3. -/
theorem off3_lt {o : Nat} (h : S200x32x3.Slices ![0, 0, o] S200x32x1) : o < 3 := by
  obtain ⟨_, h2⟩ := h
  have h3 := h2 ⟨2, by decide⟩
  change o + 1 ≤ 3 at h3
  omega

/-- A one-column slice of a [200, 4] table starts at a column below 4. -/
theorem off4_lt {o : Nat} (h : S200x4.Slices ![0, o] S200x1) : o < 4 := by
  obtain ⟨_, h2⟩ := h
  have h3 := h2 ⟨1, by decide⟩
  change o + 1 ≤ 4 at h3
  omega

/-- Channel o of a [200, 32, 3] block as a [200, 32, 1] block: element (p, t, 0) is the block's (p, t, o). -/
theorem slice3_1 (v : S200x32x3.Idx → α) (o : Nat) (h : S200x32x3.Slices ![0, 0, o] S200x32x1) (p : Fin 200) (t : Fin 32)
    (z : Fin 1) : extractStridedSlice S200x32x1 ![0, 0, o] v h (ix3 p t z) = v (ix3 p t ⟨o, off3_lt h⟩) :=
  extractStridedSlice_apply _ v h _ _ fun a => by
    match a with
    | ⟨0, _⟩ => exact (Nat.zero_add _).symm
    | ⟨1, _⟩ => exact (Nat.zero_add _).symm
    | ⟨2, _⟩ => show o = o + z.val; have := z.isLt; omega

/-- Column o of a [200, 4] table as a [200, 1] column: element (p, 0) is the table's (p, o). -/
theorem slice4_1 (v : S200x4.Idx → α) (o : Nat) (h : S200x4.Slices ![0, o] S200x1) (p : Fin 200) (z : Fin 1) :
    extractStridedSlice S200x1 ![0, o] v h (ix2 p z) = v (ix2 p ⟨o, off4_lt h⟩) :=
  extractStridedSlice_apply _ v h _ _ fun a => by
    match a with
    | ⟨0, _⟩ => exact (Nat.zero_add _).symm
    | ⟨1, _⟩ => show o = o + z.val; have := z.isLt; omega

/-- [200, 1] viewed as [200, 1, 1]. -/
theorem cast_200x1_200x1x1 (v : S200x1.Idx → α) (h : S200x1.ShapeCasts S200x1x1) (p : Fin 200) (z z' : Fin 1) :
    shapeCast S200x1x1 v h (ix3 p z z') = v (ix2 p 0) :=
  shapeCast_apply v h _ _ (by
    rw [Shape.rowMajor_val_two, Shape.rowMajor_val_three]
    show p.val * 1 + 0 = (p.val * 1 + z.val) * 1 + z'.val
    have := z.isLt; have := z'.isLt; omega)

/-- [200, 3] viewed as [200, 1, 3]. -/
theorem cast_200x3_200x1x3 (v : S200x3.Idx → α) (h : S200x3.ShapeCasts S200x1x3) (p : Fin 200) (z : Fin 1) (i : Fin 3) :
    shapeCast S200x1x3 v h (ix3 p z i) = v (ix2 p i) :=
  shapeCast_apply v h _ _ (by
    rw [Shape.rowMajor_val_two, Shape.rowMajor_val_three]
    show p.val * 3 + i.val = (p.val * 1 + z.val) * 3 + i.val
    have := z.isLt; omega)

/-- [200, 32, 1] viewed as [200, 32]. -/
theorem cast_200x32x1_200x32 (v : S200x32x1.Idx → α) (h : S200x32x1.ShapeCasts S200x32) (p : Fin 200) (t : Fin 32) :
    shapeCast S200x32 v h (ix2 p t) = v (ix3 p t 0) :=
  shapeCast_apply v h _ _ (by
    rw [Shape.rowMajor_val_two, Shape.rowMajor_val_three]
    show (p.val * 32 + t.val) * 1 + 0 = p.val * 32 + t.val
    omega)

/-- [200, 32] viewed as [200, 32, 1]. -/
theorem cast_200x32_200x32x1 (v : S200x32.Idx → α) (h : S200x32.ShapeCasts S200x32x1) (p : Fin 200) (t : Fin 32) (z : Fin 1) :
    shapeCast S200x32x1 v h (ix3 p t z) = v (ix2 p t) :=
  shapeCast_apply v h _ _ (by
    rw [Shape.rowMajor_val_two, Shape.rowMajor_val_three]
    show p.val * 32 + t.val = (p.val * 32 + t.val) * 1 + z.val
    have := z.isLt; omega)

/-- [200, 1, 1] repeated along the last axis to [200, 1, 3]. -/
theorem bcast_200x1x1_200x1x3 (v : S200x1x1.Idx → α) (h : S200x1x1.Broadcasts S200x1x3) (p : Fin 200) (z : Fin 1) (i : Fin 3) :
    broadcastTo S200x1x3 v h (ix3 p z i) = v (ix3 p 0 0) :=
  broadcastTo_apply v h _ _ fun a => by
    match a with
    | ⟨0, _⟩ => rfl
    | ⟨1, _⟩ => rfl
    | ⟨2, _⟩ => rfl

/-- [200, 1, 3] repeated along the middle axis to [200, 32, 3]. -/
theorem bcast_200x1x3_200x32x3 (v : S200x1x3.Idx → α) (h : S200x1x3.Broadcasts S200x32x3) (p : Fin 200) (t : Fin 32) (i : Fin 3) :
    broadcastTo S200x32x3 v h (ix3 p t i) = v (ix3 p 0 i) :=
  broadcastTo_apply v h _ _ fun a => by
    match a with
    | ⟨0, _⟩ => rfl
    | ⟨1, _⟩ => rfl
    | ⟨2, _⟩ => rfl

/-- [200, 1] repeated along the last axis to [200, 32]. -/
theorem bcast_200x1_200x32 (v : S200x1.Idx → α) (h : S200x1.Broadcasts S200x32) (p : Fin 200) (t : Fin 32) :
    broadcastTo S200x32 v h (ix2 p t) = v (ix2 p 0) :=
  broadcastTo_apply v h _ _ fun a => by
    match a with
    | ⟨0, _⟩ => rfl
    | ⟨1, _⟩ => rfl

end Layout

/-- The sum over the middle axis of a [200, 32, 3] block at (p, i): the sum over t of the block's (p, t, i). -/
theorem sum_mid (v : FVec Ideal S200x32x3 .f32) (h : S200x32x3.Reduces [1] S200x3) (hφ : FKind.Formats .f32)
    (hacc : (0x00000000#32 : BitVec 32) = 0x00000000#32) (p : Fin 200) (i : Fin 3) :
    multiReduction .add [1] S200x3 v 0x00000000#32 h hφ hacc (ix2 p i) = ∑ t : Fin 32, v (ix3 p t i) :=
  (Ideal.multiReduction_add_single v _ h hφ hacc (ix2 p i)).trans
    (Finset.sum_congr rfl fun t _ => congrArg v (funext fun a => by
      match a with
      | ⟨0, _⟩ => rfl
      | ⟨1, _⟩ => rfl
      | ⟨2, _⟩ => rfl))

open Cert.Lib.ConcatLast

/-- The kernel's 26 features at (p, t, c) are the specification's features of pillar p's rows, count and coordinates. -/
theorem pay2_apply (x0 : Vec Ideal S200x32x20 .f32) (x2 : Vec Ideal S200x1 .f32) (x11 : Vec Ideal S200x4 .i32) (p : Fin 200) (t : Fin 32) (c : Fin 26) :
    k0_pay2 (F := Ideal) x0 x2 x11 (ix3 p t c) = Cert.Pfn.Spec.feat (fun t' k => x0 (ix3 p t' k)) (x2 (ix2 p 0)) (fun k => x11 (ix2 p k)) t c := by
  unfold k0_pay2 Cert.Pfn.Spec.feat
  refine (concat3_last_apply (a := 20) (b := 3) (c := 3) (d := 26) rfl _ _ _ _ p t c).trans ?_
  refine cat3_congr _ (fun _ => rfl) (fun i => ?_) (fun i => ?_) c
  · -- the cluster offsets
    unfold Cert.Pfn.Spec.cluster
    simp only [subf_apply, divf_apply, slice20_3, bcast_200x1x3_200x32x3, cast_200x3_200x1x3,
      bcast_200x1x1_200x1x3, cast_200x1_200x1x1, shapeCast_self]
    exact congrArg (fun s : EReal => x0 (ix3 p t ⟨i.val, by omega⟩) - Ideal.div s (x2 (ix2 p 0)))
      ((sum_mid _ _ _ _ p i).trans (Finset.sum_congr rfl fun t' _ => slice20_3 _ _ p t' i))
  · -- the centre offsets
    unfold Cert.Pfn.Spec.centre
    refine (concat3_last_apply (a := 1) (b := 1) (c := 1) (d := 3) rfl _ _ _ _ p t i).trans ?_
    refine cat3_congr _ (fun z => ?_) (fun z => ?_) (fun z => ?_) i
    · simp only [subf_apply, addf_apply, mulf_apply, sitofp_apply, broadcast_apply, cast_200x32_200x32x1,
        cast_200x32x1_200x32, slice3_1, slice20_3, bcast_200x1_200x32, slice4_1]
      rfl
    · simp only [subf_apply, addf_apply, mulf_apply, sitofp_apply, broadcast_apply, cast_200x32_200x32x1,
        cast_200x32x1_200x32, slice3_1, slice20_3, bcast_200x1_200x32, slice4_1]
      rfl
    · simp only [subf_apply, addf_apply, mulf_apply, sitofp_apply, broadcast_apply, cast_200x32_200x32x1,
        cast_200x32x1_200x32, slice3_1, slice20_3, bcast_200x1_200x32, slice4_1]
      rfl

end Cert.Pfn.KernelFeat

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.KernelBn.lean ====
import proofs.«135140_j28037546508649_1_alg».proof.Proof.Gen.KernelIdeal.Skeleton
import proofs.«135140_j28037546508649_1_alg».proof.Proof.LibPlainDot
import Idealize.ShloMosaic.Lib.Pipeline.Value
import Idealize.ShloMosaic.Lib.ValueIdx
import Idealize.ShloMosaic.PureOps.Ideal.Laws

/-!
# The second half of the kernel body at an index

From the 26 features of the 200 × 32 points of a block (`v44`), the 26 × 64 weights (`v47`) and the four
per-channel vectors (scale parameter `v52`, variance `v53`, offset `v58`, mean `v59`) the body computes, for pillar `p`
of the block and channel `o`: the product of the point's features with column `o` of the weights — the points of
the block are laid out as 6400 rows for the matrix product, row `32 p + t` for point `t` of pillar `p` —, times the
folded scale, plus the folded shift, rectified, and the maximum over the pillar's 32 points from `-∞`.
-/

noncomputable section

namespace Cert.Pfn.KernelBn

open Idealize.ShloMosaic Idealize.ShloMosaic.ValueIdx Cert.KernelIdeal Cert.KernelIdeal.Gen Cert.Lib.PlainDot

variable {α : Type}

/-- The 200 × 32 points as 6400 rows: row `32 p + t` is point `t` of pillar `p`. -/
theorem rows_of_points (x : S200x32x26.Idx → α) (h : S200x32x26.ShapeCasts S6400x26) (p : Fin 200) (t : Fin 32) (c : Fin 26) :
    shapeCast S6400x26 x h (ix2 (⟨p.val * 32 + t.val, by omega⟩ : Fin 6400) c) = x (ix3 p t c) :=
  shapeCast_apply x h _ _ (by
    rw [Shape.rowMajor_val_three, Shape.rowMajor_val_two]
    rfl)

/-- and back: point `t` of pillar `p` is row `32 p + t`. -/
theorem points_of_rows (x : S6400x64.Idx → α) (h : S6400x64.ShapeCasts S200x32x64) (p : Fin 200) (t : Fin 32) (o : Fin 64) :
    shapeCast S200x32x64 x h (ix3 p t o) = x (ix2 (⟨p.val * 32 + t.val, by omega⟩ : Fin 6400) o) :=
  shapeCast_apply x h _ _ (by
    rw [Shape.rowMajor_val_three, Shape.rowMajor_val_two]
    rfl)

/-- A per-channel vector laid along the last axis of a [1, 1, 64] array … -/
theorem lane_vector (x : S64.Idx → α) (h : S64.ShapeCasts S1x1x64) (u v : Fin 1) (o : Fin 64) :
    shapeCast S1x1x64 x h (ix3 u v o) = x (ix1 o) :=
  shapeCast_apply x h _ _ (by
    have hu : u.val = 0 := by omega
    have hv : v.val = 0 := by omega
    rw [Shape.rowMajor_val_three, Shape.rowMajor_val_one]
    show o.val = (u.val * 1 + v.val) * 64 + o.val
    rw [hu, hv]; omega)

/-- … and spread over every point of every pillar. -/
theorem lanes_over_points (x : S1x1x64.Idx → α) (h : S1x1x64.Broadcasts S200x32x64) (p : Fin 200) (t : Fin 32) (o : Fin 64) :
    broadcastTo S200x32x64 x h (ix3 p t o) = x (ix3 (0 : Fin 1) (0 : Fin 1) o) :=
  broadcastTo_apply x h _ _ (fun a => by
    match a with
    | ⟨0, _⟩ => rfl
    | ⟨1, _⟩ => rfl
    | ⟨2, _⟩ => rfl)

/-- The matrix product into a zero accumulator at row `q`, channel `o`: the sum over the 26 features. -/
theorem product_apply (l : FVec Ideal S6400x26 .bf16) (r : FVec Ideal S26x64 .bf16) (q : Fin 6400) (o : Fin 64) :
    matmul dot_S6400x26_S26x64_S6400x64_1_0_0_1_n_n none l r (constant (F := Ideal) S6400x64 .f32 0x00000000#32) (ix2 q o)
      = ∑ k : Fin 26, l (ix2 q k) * r (ix2 k o) :=
  congrFun (matmul_zero_eq dot_S6400x26_S26x64_S6400x64_1_0_0_1_n_n rfl none l r) (ix2 q o)

/-- The maximum over the points of a pillar, from the accumulator's word. -/
theorem pillar_max (x : FVec Ideal S200x32x64 .f32) (h : S200x32x64.Reduces [1] S200x64) (hφ : FKind.Formats .f32)
    (hacc : (0xFF800000#32 : BitVec 32) = FKind.maximumf.neutral .f32 hφ) (p : Fin 200) (o : Fin 64) :
    multiReduction .maximumf [1] S200x64 x 0xFF800000#32 h hφ hacc (ix2 p o)
      = (Finset.univ : Finset (Fin 32)).fold max (Ideal.ofBits .f32 0xFF800000#32) fun t => x (ix3 p t o) :=
  (Ideal.multiReduction_maximumf_single x 0xFF800000#32 h hφ hacc (ix2 p o)).trans
    (congrArg (fun f => Finset.fold max (Ideal.ofBits .f32 0xFF800000#32) f (Finset.univ : Finset (Fin 32)))
      (funext fun t => congrArg x (funext fun a => by
        match a with
        | ⟨0, _⟩ => rfl
        | ⟨1, _⟩ => rfl
        | ⟨2, _⟩ => rfl)))

/-- The second half of the body at pillar `p`, channel `o`. -/
theorem pay1_apply (v44 : FVec Ideal S200x32x26 .f32) (v47 : Vec Ideal S26x64 .f32) (v52 v53 v58 v59 : Vec Ideal S64 .f32)
    (p : Fin 200) (o : Fin 64) :
    k0_pay1 (F := Ideal) v44 v47 v52 v53 v58 v59 (ix2 p o)
      = (Finset.univ : Finset (Fin 32)).fold max (Ideal.ofBits .f32 0xFF800000#32) fun t =>
          max ((∑ c : Fin 26, v44 (ix3 p t c) * v47 (ix2 c o))
                * (v52 (ix1 o) * Ideal.rsqrt (v53 (ix1 o) + Ideal.ofBits .f32 0x3A83126F#32))
              + (v58 (ix1 o) - v59 (ix1 o) * (v52 (ix1 o) * Ideal.rsqrt (v53 (ix1 o) + Ideal.ofBits .f32 0x3A83126F#32))))
            (Ideal.ofBits .f32 0x00000000#32) := by
  unfold k0_pay1
  refine (pillar_max _ _ _ _ p o).trans ?_
  refine congrArg (fun f => Finset.fold max (Ideal.ofBits .f32 0xFF800000#32) f (Finset.univ : Finset (Fin 32)))
    (funext fun t => ?_)
  simp only [maximumf_apply, addf_apply, mulf_apply, subf_apply, broadcast_apply, lanes_over_points, lane_vector,
    points_of_rows, product_apply, truncf_apply, rows_of_points, shapeCast_self]
  rfl

end Cert.Pfn.KernelBn

end
-- ==== Proof.KernelReads.lean ====
import proofs.«135140_j28037546508649_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal

/-!
# What the launch finds in each window, block by block

The grid has 400 points; point `t` works on pillars `200 t … 200 t + 199`. Its block of the pillar array, of the
coordinate array, of the point counts and of the output are rows `200 t + p` of those arrays; the weights and the four
per-channel vectors are whole at every point. Two of the windowed arrays are written by the host before the launch: the
weights transposed, and the point counts converted to floats as a column.
-/

set_option maxRecDepth 16384

noncomputable section

namespace Cert.Pfn.KernelReads

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The printed index maps over the grid: the four windows that move take block `t` at point `t`, the others block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 1) = 0 ∧ win0_7.index t (0 : Fin 1) = 0
    ∧ win0_8.index t (0 : Fin 2) = t.val ∧ win0_8.index t (1 : Fin 2) = 0 :=
  (by decide +kernel : ∀ t : Fin grid0.N, _)

theorem lt_N (t : Fin cfg0.N) : t.val < 400 := by
  have h := t.isLt
  have hN : cfg0.N = 400 := N_0
  omega

/-- The row of the whole arrays that row `p` of point `t`'s blocks is. -/
def row (t : Fin cfg0.N) (p : Fin 200) : Fin 80000 := ⟨t.val * 200 + p.val, by have := lt_N t; omega⟩

/-- The pillar block. -/
theorem read0 (c : Dev nD) (t : Fin cfg0.N) (p : Fin 200) (q : Fin 32) (k : Fin 20) :
    iblk m c 0 t (ix3 p q k) = V m c main_arg0 (ix3 (row t p) q k) := by
  show V m c main_arg0 (((cfg0.win 0).blk t).view.emb (ix3 p q k)) = _
  refine congrArg (V m c main_arg0) (funext fun a => Fin.ext ?_)
  obtain ⟨e0, e1, e2, -⟩ := idx_facts t
  match a with
  | ⟨0, _⟩ => show win0_0.index t (0 : Fin 3) * 200 + 1 * p.val = t.val * 200 + p.val; omega
  | ⟨1, _⟩ => show win0_0.index t (1 : Fin 3) * 32 + 1 * q.val = q.val; omega
  | ⟨2, _⟩ => show win0_0.index t (2 : Fin 3) * 20 + 1 * k.val = k.val; omega

/-- The coordinate block. -/
theorem read1 (c : Dev nD) (t : Fin cfg0.N) (p : Fin 200) (k : Fin 4) :
    iblk m c 1 t (ix2 p k) = V m c main_arg6 (ix2 (row t p) k) := by
  show V m c main_arg6 (((cfg0.win 1).blk t).view.emb (ix2 p k)) = _
  refine congrArg (V m c main_arg6) (funext fun a => Fin.ext ?_)
  obtain ⟨-, -, -, e0, e1, -⟩ := idx_facts t
  match a with
  | ⟨0, _⟩ => show win0_1.index t (0 : Fin 2) * 200 + 1 * p.val = t.val * 200 + p.val; omega
  | ⟨1, _⟩ => show win0_1.index t (1 : Fin 2) * 4 + 1 * k.val = k.val; omega

/-- The point-count block. -/
theorem read2 (c : Dev nD) (t : Fin cfg0.N) (p : Fin 200) (u : Fin 1) :
    iblk m c 2 t (ix2 p u) = V m c main_v2 (ix2 (row t p) u) := by
  show V m c main_v2 (((cfg0.win 2).blk t).view.emb (ix2 p u)) = _
  refine congrArg (V m c main_v2) (funext fun a => Fin.ext ?_)
  obtain ⟨-, -, -, -, -, e0, e1, -⟩ := idx_facts t
  match a with
  | ⟨0, _⟩ => show win0_2.index t (0 : Fin 2) * 200 + 1 * p.val = t.val * 200 + p.val; omega
  | ⟨1, _⟩ => show win0_2.index t (1 : Fin 2) * 1 + 1 * u.val = u.val; omega

/-- The weights, whole. -/
theorem read3 (c : Dev nD) (t : Fin cfg0.N) (k : Fin 26) (o : Fin 64) :
    iblk m c 3 t (ix2 k o) = V m c main_v0 (ix2 k o) := by
  show V m c main_v0 (((cfg0.win 3).blk t).view.emb (ix2 k o)) = _
  refine congrArg (V m c main_v0) (funext fun a => Fin.ext ?_)
  obtain ⟨-, -, -, -, -, -, -, e0, e1, -⟩ := idx_facts t
  match a with
  | ⟨0, _⟩ => show win0_3.index t (0 : Fin 2) * 26 + 1 * k.val = k.val; omega
  | ⟨1, _⟩ => show win0_3.index t (1 : Fin 2) * 64 + 1 * o.val = o.val; omega

/-- The four per-channel vectors, whole. -/
theorem read4 (c : Dev nD) (t : Fin cfg0.N) (o : Fin 64) : iblk m c 4 t (ix1 o) = V m c main_arg2 (ix1 o) := by
  show V m c main_arg2 (((cfg0.win 4).blk t).view.emb (ix1 o)) = _
  refine congrArg (V m c main_arg2) (funext fun a => Fin.ext ?_)
  obtain ⟨-, -, -, -, -, -, -, -, -, e0, -⟩ := idx_facts t
  match a with
  | ⟨0, _⟩ => show win0_4.index t (0 : Fin 1) * 64 + 1 * o.val = o.val; omega
theorem read5 (c : Dev nD) (t : Fin cfg0.N) (o : Fin 64) : iblk m c 5 t (ix1 o) = V m c main_arg3 (ix1 o) := by
  show V m c main_arg3 (((cfg0.win 5).blk t).view.emb (ix1 o)) = _
  refine congrArg (V m c main_arg3) (funext fun a => Fin.ext ?_)
  obtain ⟨-, -, -, -, -, -, -, -, -, -, e0, -⟩ := idx_facts t
  match a with
  | ⟨0, _⟩ => show win0_5.index t (0 : Fin 1) * 64 + 1 * o.val = o.val; omega
theorem read6 (c : Dev nD) (t : Fin cfg0.N) (o : Fin 64) : iblk m c 6 t (ix1 o) = V m c main_arg4 (ix1 o) := by
  show V m c main_arg4 (((cfg0.win 6).blk t).view.emb (ix1 o)) = _
  refine congrArg (V m c main_arg4) (funext fun a => Fin.ext ?_)
  obtain ⟨-, -, -, -, -, -, -, -, -, -, -, e0, -⟩ := idx_facts t
  match a with
  | ⟨0, _⟩ => show win0_6.index t (0 : Fin 1) * 64 + 1 * o.val = o.val; omega
theorem read7 (c : Dev nD) (t : Fin cfg0.N) (o : Fin 64) : iblk m c 7 t (ix1 o) = V m c main_arg5 (ix1 o) := by
  show V m c main_arg5 (((cfg0.win 7).blk t).view.emb (ix1 o)) = _
  refine congrArg (V m c main_arg5) (funext fun a => Fin.ext ?_)
  obtain ⟨-, -, -, -, -, -, -, -, -, -, -, -, e0, -⟩ := idx_facts t
  match a with
  | ⟨0, _⟩ => show win0_7.index t (0 : Fin 1) * 64 + 1 * o.val = o.val; omega

/-- Where row `p`, channel `o` of point `t`'s output block sits in the output array. -/
theorem emb8 (t : Fin cfg0.N) (p : Fin 200) (o : Fin 64) :
    ((cfg0.win 8).blk t).view.emb (ix2 p o) = ix2 (row t p) o := by
  refine funext fun a => Fin.ext ?_
  obtain ⟨-, -, -, -, -, -, -, -, -, -, -, -, -, e0, e1⟩ := idx_facts t
  match a with
  | ⟨0, _⟩ => show win0_8.index t (0 : Fin 2) * 200 + 1 * p.val = t.val * 200 + p.val; omega
  | ⟨1, _⟩ => show win0_8.index t (1 : Fin 2) * 64 + 1 * o.val = o.val; omega

/-- The weights as the launch finds them: the host's transpose of the weight argument. -/
theorem V_weights (c : Dev nD) (k : Fin 26) (o : Fin 64) :
    V m c main_v0 (ix2 k o) = m ((c : Thread nD τ).loc main_arg1) (ix2 o k) := by
  have e : (V m c main_v0 : S26x64.Idx → EReal)
      = transpose S26x64 [1, 0] (m ((c : Thread nD τ).loc main_arg1)) transposes_S64x26_S26x64_1_0 := by
    show StableHlo.after hostOps0 (fun b => m (c, b)) (Proc.devRef .tc main_v0) = _
    after_results
  rw [e]
  exact transpose_ix2_apply _ _ k o

/-- The point counts as the launch finds them: the host's conversion to floats, recast as a column. -/
theorem V_counts (c : Dev nD) (P : Fin 80000) (u : Fin 1) :
    V m c main_v2 (ix2 P u) = FloatOps.sitofp (F := Ideal) .f32 (m ((c : Thread nD τ).loc main_arg7) (ix1 P)) := by
  have e : (V m c main_v2 : S80000x1.Idx → EReal)
      = shapeCast S80000x1 (sitofp (F := Ideal) .f32 (m ((c : Thread nD τ).loc main_arg7))) shapeCasts_S80000_S80000x1 := by
    show StableHlo.after hostOps0 (fun b => m (c, b)) (Proc.devRef .tc main_v2) = _
    after_results
    rfl
  rw [e]
  refine (shapeCast_apply _ _ (ix2 P u) (ix1 P) ?_).trans rfl
  have hu : u.val = 0 := by omega
  rw [Shape.rowMajor_val_one, Shape.rowMajor_val_two]
  show P.val = P.val * 1 + u.val
  omega

end Cert.Pfn.KernelReads

end
-- ==== Proof.Tail.lean ====
import proofs.«135140_j28037546508649_1_alg».proof.Proof.Gen.KernelIdeal.Launch
import Idealize.ShloMosaic.Lib.StableHlo.Run
import Idealize.ShloMosaic.PureOps.Ideal

/-!
# The scatter to the grid, as one function

After the pooled features `pv` (one row of 64 channels per pillar) are computed, both programs place each pillar's
row at its cell of a zero-initialised grid: the cell index is read off the integer coordinates `cd` (batch from
column 0; `z + 432 y + x` from columns 1, 2, 3; a negative index wrapped once), the rows are scattered by
overwriting, and the grid is transposed and recast as [4, 64, 496, 432]. The function is never opened: the two
programs apply it to the same coordinates and to pooled features that are shown equal.
-/

noncomputable section

namespace Cert.Pfn.Tail

open Idealize.ShloMosaic Idealize.ShloMosaic.TcCoe Idealize.SL.Sem Cert.KernelIdeal Cert.KernelIdeal.Gen

/-- The pooled features scattered to the grid of cells. -/
def tail (cd : IVec S80000x4 32) (pv : FVec Ideal S80000x64 .f32) : FVec Ideal S4x64x496x432 .f32 :=
  let v4 : IVec S80000x1 32 := extractStridedSlice S80000x1 ![0, 1] cd slices_S80000x4_S80000x1_0_1
  let v5 : IVec S80000 32 := shapeCast S80000 v4 shapeCasts_S80000x1_S80000
  let v6 : IVec S80000x1 32 := extractStridedSlice S80000x1 ![0, 2] cd slices_S80000x4_S80000x1_0_2
  let v7 : IVec S80000 32 := shapeCast S80000 v6 shapeCasts_S80000x1_S80000
  let c : IVec S_ 32 := constantI S_ 32 432#32
  let v8 : IVec S80000 32 := broadcastInDim S80000 ![] bcast_S_S80000 c
  let v9 : IVec S80000 32 := muli v7 v8
  let v10 : IVec S80000 32 := addi v5 v9
  let v11 : IVec S80000x1 32 := extractStridedSlice S80000x1 ![0, 3] cd slices_S80000x4_S80000x1_0_3
  let v12 : IVec S80000 32 := shapeCast S80000 v11 shapeCasts_S80000x1_S80000
  let v13 : IVec S80000 32 := addi v10 v12
  let v14 : IVec S80000x1 32 := extractStridedSlice S80000x1 ![0, 0] cd slices_S80000x4_S80000x1_0_0
  let v15 : IVec S80000 32 := shapeCast S80000 v14 shapeCasts_S80000x1_S80000
  let cst : FVec Ideal S_ .f32 := constant (F := Ideal) S_ .f32 0x00000000#32
  let v16 : FVec Ideal S4x214272x64 .f32 := broadcastInDim S4x214272x64 ![] bcast_S_S4x214272x64 cst
  let c_0 : IVec S_ 32 := constantI S_ 32 0#32
  let v17 : IVec S80000 32 := broadcastInDim S80000 ![] bcast_S_S80000 c_0
  let v18 : IVec S80000 1 := cmpi .slt v15 v17
  let c_1 : IVec S_ 32 := constantI S_ 32 4#32
  let v19 : IVec S80000 32 := broadcastInDim S80000 ![] bcast_S_S80000 c_1
  let v20 : IVec S80000 32 := addi v15 v19
  let v21 : IVec S80000 32 := select v18 v20 v15
  let c_2 : IVec S_ 32 := constantI S_ 32 0#32
  let v22 : IVec S80000 32 := broadcastInDim S80000 ![] bcast_S_S80000 c_2
  let v23 : IVec S80000 1 := cmpi .slt v13 v22
  let c_3 : IVec S_ 32 := constantI S_ 32 214272#32
  let v24 : IVec S80000 32 := broadcastInDim S80000 ![] bcast_S_S80000 c_3
  let v25 : IVec S80000 32 := addi v13 v24
  let v26 : IVec S80000 32 := select v23 v25 v13
  let v27 : IVec S80000x1 32 := broadcastInDim S80000x1 ![0] bcast_S80000_S80000x1_0 v21
  let v28 : IVec S80000x1 32 := broadcastInDim S80000x1 ![0] bcast_S80000_S80000x1_0 v26
  let v29 : IVec S80000x2 32 := concatenate S80000x2 1 [⟨S80000x1, v27⟩, ⟨S80000x1, v28⟩] concatenates_S80000x1_S80000x1_S80000x2_d1
  let v30 : FVec Ideal S4x214272x64 .f32 :=
    Host.scatter scatter_S4x214272x64_S80000x2_S80000x64_1_01_01_1 (fun _ b => b) v16 v29 pv
  let v31 : FVec Ideal S4x64x214272 .f32 := transpose S4x64x214272 [0, 2, 1] v30 transposes_S4x214272x64_S4x64x214272_0_2_1
  shapeCast S4x64x496x432 v31 shapeCasts_S4x64x214272_S4x64x496x432

set_option maxHeartbeats 2000000 in
/-- The host operations after the launch leave, at the result, the scatter of whatever the launch left in the pooled
    features' buffer, at the coordinates argument. -/
theorem after_tail (W : Valuation τ sig (Elt Ideal)) :
    StableHlo.after (hostOps1 (F := Ideal)) W (Proc.devRef .tc main_v32)
      = tail (W (Proc.devRef .tc main_arg6)) (W (Proc.devRef .tc main_v3)) := by
  after_results
  rfl

end Cert.Pfn.Tail

end
-- ==== Proof.KernelPv.lean ====
import proofs.«135140_j28037546508649_1_alg».proof.Proof.Gen.KernelIdeal.Frame
import proofs.«135140_j28037546508649_1_alg».proof.Proof.Spec
import proofs.«135140_j28037546508649_1_alg».proof.Proof.KernelFeat
import proofs.«135140_j28037546508649_1_alg».proof.Proof.KernelBn
import proofs.«135140_j28037546508649_1_alg».proof.Proof.KernelReads
import proofs.«135140_j28037546508649_1_alg».proof.Proof.Tail
import Idealize.ShloMosaic.Lib.Pipeline.Value
import Idealize.ShloMosaic.Lib.ValueIdx
import Idealize.ShloMosaic.PureOps.Ideal

/-!
# The kernel's run, read: the result is the scatter of the pooled features

Point `t` of the grid writes back, as rows `200 t … 200 t + 199` of the pooled-features array, the body's result on
its blocks; the body's result at row `p`, channel `o` is the specification's `outK` of pillar `200 t + p`'s data. The
400 blocks tile the array, so after the launch the array is one function of the arguments, `pooledK`, and the host
operations after the launch scatter it to the grid.
-/

set_option maxRecDepth 16384

noncomputable section

namespace Cert.Pfn.KernelPv

open Idealize.ShloMosaic Idealize.ShloMosaic.TcCoe Idealize.ShloMosaic.ValueIdx Idealize.SL.Sem
open Cert.KernelIdeal Cert.KernelIdeal.Gen Cert.Pfn.KernelReads

/-- The pooled features of every pillar from the arrays the launch works on: pillars `a0`, coordinates `a6`, point
    counts as a float column `n`, transposed weights `wt`, and the four per-channel vectors. -/
def pooledWin (a0 : Vec Ideal S80000x32x20 .f32) (a6 : Vec Ideal S80000x4 .i32) (n : Vec Ideal S80000x1 .f32)
    (wt : Vec Ideal S26x64 .f32) (g b mu v : Vec Ideal S64 .f32) : Vec Ideal S80000x64 .f32 :=
  fun i => Spec.outK (fun t k => a0 (ix3 (i 0) t k)) (n (ix2 (i 0) (0 : Fin 1))) (fun k => a6 (ix2 (i 0) k))
    (fun c => wt (ix2 c (i 1))) (g (ix1 (i 1))) (b (ix1 (i 1))) (mu (ix1 (i 1))) (v (ix1 (i 1)))

/-- The same from the program's arguments: weights `a1` as given (channel by feature), point counts `a7` as
    integers. -/
def pooledK (a0 : Vec Ideal S80000x32x20 .f32) (a1 : Vec Ideal S64x26 .f32) (a2 a3 a4 a5 : Vec Ideal S64 .f32)
    (a6 : Vec Ideal S80000x4 .i32) (a7 : Vec Ideal S80000 .i32) : Vec Ideal S80000x64 .f32 :=
  fun i => Spec.outK (fun t k => a0 (ix3 (i 0) t k)) (FloatOps.sitofp (F := Ideal) .f32 (a7 (ix1 (i 0))))
    (fun k => a6 (ix2 (i 0) k)) (fun c => a1 (ix2 (i 1) c)) (a2 (ix1 (i 1))) (a3 (ix1 (i 1))) (a4 (ix1 (i 1))) (a5 (ix1 (i 1)))

theorem pooledWin_apply (a0 : Vec Ideal S80000x32x20 .f32) (a6 : Vec Ideal S80000x4 .i32) (n : Vec Ideal S80000x1 .f32)
    (wt : Vec Ideal S26x64 .f32) (g b mu v : Vec Ideal S64 .f32) (P : Fin 80000) (o : Fin 64) :
    pooledWin a0 a6 n wt g b mu v (ix2 P o)
      = Spec.outK (fun t k => a0 (ix3 P t k)) (n (ix2 P (0 : Fin 1))) (fun k => a6 (ix2 P k))
          (fun c => wt (ix2 c o)) (g (ix1 o)) (b (ix1 o)) (mu (ix1 o)) (v (ix1 o)) := rfl

theorem pooledK_apply (a0 : Vec Ideal S80000x32x20 .f32) (a1 : Vec Ideal S64x26 .f32) (a2 a3 a4 a5 : Vec Ideal S64 .f32)
    (a6 : Vec Ideal S80000x4 .i32) (a7 : Vec Ideal S80000 .i32) (P : Fin 80000) (o : Fin 64) :
    pooledK a0 a1 a2 a3 a4 a5 a6 a7 (ix2 P o)
      = Spec.outK (fun t k => a0 (ix3 P t k)) (FloatOps.sitofp (F := Ideal) .f32 (a7 (ix1 P)))
          (fun k => a6 (ix2 P k)) (fun c => a1 (ix2 o c)) (a2 (ix1 o)) (a3 (ix1 o)) (a4 (ix1 o)) (a5 (ix1 o)) := rfl

/-- The body's result on blocks that are rows `P` (read at local row `p`) of the arrays. -/
theorem block_eq (a0 : Vec Ideal S80000x32x20 .f32) (a6 : Vec Ideal S80000x4 .i32) (n : Vec Ideal S80000x1 .f32)
    (wt : Vec Ideal S26x64 .f32) (g b mu v : Vec Ideal S64 .f32)
    (x0 : Vec Ideal S200x32x20 .f32) (x1 : Vec Ideal S200x4 .i32) (x2 : Vec Ideal S200x1 .f32) (x3 : Vec Ideal S26x64 .f32)
    (x4 x5 x6 x7 : Vec Ideal S64 .f32) (P : Fin 80000) (p : Fin 200) (o : Fin 64)
    (h0 : ∀ t k, x0 (ix3 p t k) = a0 (ix3 P t k)) (h1 : ∀ k, x1 (ix2 p k) = a6 (ix2 P k))
    (h2 : x2 (ix2 p (0 : Fin 1)) = n (ix2 P (0 : Fin 1))) (h3 : ∀ c, x3 (ix2 c o) = wt (ix2 c o))
    (h4 : x4 (ix1 o) = g (ix1 o)) (h5 : x5 (ix1 o) = b (ix1 o)) (h6 : x6 (ix1 o) = mu (ix1 o)) (h7 : x7 (ix1 o) = v (ix1 o)) :
    k0_pay1 (F := Ideal) (k0_pay2 (F := Ideal) x0 x2 x1) x3 x4 x7 x5 x6 (ix2 p o) = pooledWin a0 a6 n wt g b mu v (ix2 P o) := by
  rw [KernelBn.pay1_apply, pooledWin_apply]
  unfold Spec.outK Spec.lin
  simp only [KernelFeat.pay2_apply, h0, h1, h2, h3, h4, h5, h6, h7]

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What point `t` writes back is block `t` of the pooled features. -/
theorem flushed_eq (c : Dev nD) (t : Fin cfg0.N) :
    (dats m 0 c).flushed 8 t = ((cfg0.win 8).blk t).view.read (Elt Ideal)
      (pooledWin (V m c main_arg0) (V m c main_arg6) (V m c main_v2) (V m c main_v0) (V m c main_arg2) (V m c main_arg3)
        (V m c main_arg4) (V m c main_arg5)) := by
  show (cfg0.win 8).cut (grid0.coords t) ((dats m 0 c).after 8 t) = _
  rw [after0_8]
  unfold out0_8
  rw [View.canon_unit_zero hz2]
  simp only [View.ld_unit_zero (S := S200x32x20) hz3, View.ld_unit_zero (S := S200x4) hz2, View.ld_unit_zero (S := S200x1) hz2,
    View.ld_unit_zero (S := S26x64) hz2, View.ld_unit_zero (S := S64) hz1]
  funext j
  obtain ⟨p, o, rfl⟩ : ∃ (p : Fin 200) (o : Fin 64), j = ix2 p o := ⟨j 0, j 1, eq_ix2 j⟩
  show k0_pay1 (F := Ideal) (k0_pay2 (F := Ideal) (iblk m c 0 t) (iblk m c 2 t) (iblk m c 1 t)) (iblk m c 3 t) (iblk m c 4 t)
      (iblk m c 7 t) (iblk m c 5 t) (iblk m c 6 t) (ix2 p o)
    = pooledWin (V m c main_arg0) (V m c main_arg6) (V m c main_v2) (V m c main_v0) (V m c main_arg2) (V m c main_arg3)
        (V m c main_arg4) (V m c main_arg5) (((cfg0.win 8).blk t).view.emb (ix2 p o))
  rw [emb8 t p o]
  exact block_eq (V m c main_arg0) (V m c main_arg6) (V m c main_v2) (V m c main_v0) (V m c main_arg2) (V m c main_arg3)
    (V m c main_arg4) (V m c main_arg5) (iblk m c 0 t) (iblk m c 1 t) (iblk m c 2 t) (iblk m c 3 t) (iblk m c 4 t)
    (iblk m c 5 t) (iblk m c 6 t) (iblk m c 7 t) (row t p) p o
    (fun q k => read0 m c t p q k) (fun k => read1 m c t p k) (read2 m c t p 0) (fun k => read3 m c t k o)
    (read4 m c t o) (read5 m c t o) (read6 m c t o) (read7 m c t o)

/-- An index of the output array is in point `t`'s block iff each coordinate is in the block's range. -/
theorem mem_blk8 (t : Fin cfg0.N) (i : S80000x64.Idx) :
    i ∈ ((cfg0.win 8).blk t).view.set
      ↔ ∀ a : Fin 2, win0_8.index t a * S200x64.size a ≤ (i a).val ∧ (i a).val < win0_8.index t a * S200x64.size a + S200x64.size a := by
  show i ∈ ((View.whole main_v3).slice (win0_8.rect t)).set ↔ _
  rw [View.set_slice_whole, Rect.mem_set_unit]
  exact Iff.rfl

/-- The 400 blocks tile the array: row `r` is in the block of point `r / 200`. -/
theorem cover8 (i : S80000x64.Idx) : ∃ t : Fin cfg0.N, (cfg0.win 8).flush t = true ∧ i ∈ ((cfg0.win 8).blk t).view.set := by
  have hi0 : (i 0).val < 80000 := (i 0).isLt
  have hi1 : (i 1).val < 64 := (i 1).isLt
  have hN : cfg0.N = 400 := N_0
  let t : Fin cfg0.N := ⟨(i 0).val / 200, by rw [hN]; omega⟩
  refine ⟨t, flush0_8 t, ?_⟩
  rw [mem_blk8]
  obtain ⟨-, -, -, -, -, -, -, -, -, -, -, -, -, e0, e1⟩ := idx_facts t
  have ht : t.val = (i 0).val / 200 := rfl
  intro a
  match a with
  | ⟨0, _⟩ =>
    show win0_8.index t (0 : Fin 2) * 200 ≤ (i 0).val ∧ (i 0).val < win0_8.index t (0 : Fin 2) * 200 + 200
    omega
  | ⟨1, _⟩ =>
    show win0_8.index t (1 : Fin 2) * 64 ≤ (i 1).val ∧ (i 1).val < win0_8.index t (1 : Fin 2) * 64 + 64
    omega

/-- The pooled-features array after the launch, from the arrays the launch works on … -/
theorem final8 (c : Dev nD) : (dats m 0 c).arrAt 8 cfg0.N
    = pooledWin (V m c main_arg0) (V m c main_arg6) (V m c main_v2) (V m c main_v0) (V m c main_arg2) (V m c main_arg3)
        (V m c main_arg4) (V m c main_arg5) :=
  (dats m 0 c).arrAt_eq_of_cover 8 _ (fun t _ => flushed_eq m c t) cover8

/-- … which is the function of the program's arguments. -/
theorem pooledWin_eq (c : Dev nD) :
    pooledWin (V m c main_arg0) (V m c main_arg6) (V m c main_v2) (V m c main_v0) (V m c main_arg2) (V m c main_arg3)
        (V m c main_arg4) (V m c main_arg5)
      = pooledK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [V_main_arg0, V_main_arg6, V_main_arg2, V_main_arg3, V_main_arg4, V_main_arg5]
  funext i
  obtain ⟨P, o, rfl⟩ : ∃ (P : Fin 80000) (o : Fin 64), i = ix2 P o := ⟨i 0, i 1, eq_ix2 i⟩
  rw [pooledWin_apply, pooledK_apply]
  rw [V_counts m c P 0]
  simp only [V_weights m c]

/-- The result buffer after the host operations that follow the launch. -/
theorem result_eq (c : Dev nD) :
    Pipeline.afterTail₀ cfgs (dats m) 0 (V0 m) [hostOps1] c main_v32
      = Tail.tail (m ((c.tc : Thread nD τ).loc main_arg6))
          (pooledK (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))) := by
  unfold Pipeline.afterTail₀
  refine (Tail.after_tail _).trans ?_
  have e1 := Pipeline.withArrays_arr (Val := Elt Ideal) spec0 launch0.win.arr_inj c (V0 m c)
    (fun w => (dats m 0 c).arrAt w cfg0.N) 1
  have e8 := Pipeline.withArrays_arr (Val := Elt Ideal) spec0 launch0.win.arr_inj c (V0 m c)
    (fun w => (dats m 0 c).arrAt w cfg0.N) 8
  refine (congrArg₂ Tail.tail e1 e8).trans ?_
  refine congrArg₂ Tail.tail ?_ ?_
  · exact ((dats m 0 c).arrAt_in 1 rfl _).trans ((A_eq m c 1).trans (V_main_arg6 m c))
  · exact (final8 m c).trans (pooledWin_eq m c)

/-- THE KERNEL'S RUN, READ: the result is the scatter of the pooled features, and the arguments are unchanged. -/
theorem run : θ_run defs (onTc (τ := τ) (main (F := Ideal))) ⟨m, fun _ => 0, ρ⟩ fun r => ∀ c : Dev nD,
    r.2.mem ((c.tc : Thread nD τ).loc main_v32)
      = Tail.tail (m ((c.tc : Thread nD τ).loc main_arg6))
          (pooledK (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c =>
    ⟨((h c).2 main_v32 (Pipeline.mem_restRefs_of main_v32 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c))),
      ((h c).1 1).trans (((dats m 0 c).arrAt_in 1 rfl _).trans ((A_eq m c 1).trans (V_main_arg6 m c))),
      (((h c).2 main_arg7 (Pipeline.mem_restRefs_of main_arg7 (by decide) (by decide))).trans (W_main_arg7 m (dats m) c))⟩)
    (run_main m ρ)

end Cert.Pfn.KernelPv

end
-- ==== Proof.RefPv.lean ====
import proofs.«135140_j28037546508649_1_alg».proof.Proof.Gen.ReferenceIdeal.Read
import proofs.«135140_j28037546508649_1_alg».proof.Proof.Spec
import proofs.«135140_j28037546508649_1_alg».proof.Proof.LibConcatLast
import Idealize.ShloMosaic.Lib.Pipeline.Value
import Idealize.ShloMosaic.Lib.ValueIdx
import Idealize.ShloMosaic.PureOps.Ideal.Laws

/-!
# The reference's pooled pillar features are the specification's

The reference computes, for all 80000 pillars at once, the 26 point features (channels, offsets from the pillar mean,
offsets from the cell centre), a linear layer, an inference-mode batch norm (centred, then scaled), a rectifier and the
maximum over the 32 points of each pillar. Read at one pillar `P` and one output channel `o`, every stage is the
corresponding stage of the one-pillar specification applied to that pillar's rows: the statements below follow the
program stage by stage — mean offsets, the three centre offsets, their join, the join of all 26 features, the linear
layer, the affine map of the batch norm, and the rectified maximum over the points.
-/

noncomputable section
namespace Cert.Pfn.RefPv
open Idealize.ShloMosaic Idealize.ShloMosaic.ValueIdx Cert.ReferenceIdeal Cert.ReferenceIdeal.Gen Cert.ReferenceIdeal.Read
open Cert.Lib.ConcatLast

/-- the offsets from the pillar mean: the sum over the 32 points starts from the zero word, the quotient is the
    extended-real division by the point count -/
theorem ref_cluster (x0 : (⟨S80000x32x20, .f32⟩ : BufTy).Contents (Elt Ideal)) (x7 : (⟨S80000, .i32⟩ : BufTy).Contents (Elt Ideal)) (P : Fin 80000) (t : Fin 32) (i : Fin 3) :
    val_main_v8 (F := Ideal) x0 x7 (ix3 P t i)
      = Cert.Pfn.Spec.cluster (fun t k => x0 (ix3 P t k)) (FloatOps.sitofp (F := Ideal) .f32 (x7 (ix1 P))) t i := by
  rw [val_main_v8_apply, val_main_v0_apply, val_main_v7_apply, val_main_v6_apply, val_main_v4_apply,
    val_main_v3_apply, val_main_v5_apply, val_main_v2_apply, val_main_v1_apply]
  have hz : val_main_cst (F := Ideal) (Shape.Idx.first h_S_) = (0 : EReal) := Ideal.ofBits_zero_f32
  have e0 : idx_main_v0 (ix3 P t i) = ix3 P t ⟨i.val, by omega⟩ :=
    funext fun a => by match a with | ⟨0, _⟩ => rfl | ⟨1, _⟩ => rfl | ⟨2, _⟩ => rfl
  have e7 : idx_main_v2 (idx_main_v5 (idx_main_v7 (ix3 P t i))) = ix1 P :=
    funext fun a => by match a with | ⟨0, _⟩ => rfl
  have es : ∀ k : Fin 32, val_main_v0 (F := Ideal) x0 (idx_main_v3 (idx_main_v4 (idx_main_v7 (ix3 P t i))) k)
      = x0 (ix3 P k ⟨i.val, by omega⟩) := fun k => by
    rw [val_main_v0_apply]
    exact congrArg x0 (funext fun a => by match a with | ⟨0, _⟩ => rfl | ⟨1, _⟩ => rfl | ⟨2, _⟩ => rfl)
  rw [hz, zero_add, e0, e7, Finset.sum_congr rfl (fun k _ => es k)]
  rfl

/-- the first centre offset: channel 0 against the cell centre from coordinate column 3 -/
theorem ref_c0 (x0 : (⟨S80000x32x20, .f32⟩ : BufTy).Contents (Elt Ideal)) (x6 : (⟨S80000x4, .i32⟩ : BufTy).Contents (Elt Ideal)) (P : Fin 80000) (t : Fin 32) (i : Fin 1) :
    val_main_v43 (F := Ideal) x0 x6 (ix3 P t i)
      = x0 (ix3 P t ⟨0, by decide⟩)
        - (FloatOps.sitofp (F := Ideal) .f32 (x6 (ix2 P ⟨3, by decide⟩)) * Ideal.ofBits .f32 0x3E23D70A#32
            + Ideal.ofBits .f32 0x3DA3D70A#32) := by
  rw [val_main_v43_apply, val_main_v20_apply, val_main_v11_apply, val_main_v10_apply, val_main_v0_apply,
    val_main_v19_apply, val_main_v18_apply, val_main_v16_apply, val_main_v14_apply, val_main_v13_apply,
    val_main_v12_apply, val_main_v9_apply, val_main_v15_apply, val_main_cst_0_apply, val_main_v17_apply,
    val_main_cst_1_apply]
  have hP := P.isLt
  have ht := t.isLt
  have e0 : idx_main_v0 (idx_main_v10 (idx_main_v11 (idx_main_v43 (ix3 P t i)))) = ix3 P t ⟨0, by decide⟩ :=
    funext fun a => Fin.ext (by
      match a with
      | ⟨0, _⟩ => show (P.val * 32 + t.val) / 32 = P.val; omega
      | ⟨1, _⟩ => show (P.val * 32 + t.val) / 1 % 32 = t.val; omega
      | ⟨2, _⟩ => rfl)
  have e6 : idx_main_v12 (idx_main_v13 (idx_main_v14 (idx_main_v19 (idx_main_v43 (ix3 P t i))))) = ix2 P ⟨3, by decide⟩ :=
    funext fun a => Fin.ext (by
      match a with
      | ⟨0, _⟩ => show P.val / 1 = P.val; omega
      | ⟨1, _⟩ => rfl)
  rw [e0, e6]
  rfl

/-- the second centre offset: channel 1 against the cell centre from coordinate column 2 -/
theorem ref_c1 (x0 : (⟨S80000x32x20, .f32⟩ : BufTy).Contents (Elt Ideal)) (x6 : (⟨S80000x4, .i32⟩ : BufTy).Contents (Elt Ideal)) (P : Fin 80000) (t : Fin 32) (i : Fin 1) :
    val_main_v44 (F := Ideal) x0 x6 (ix3 P t i)
      = x0 (ix3 P t ⟨1, by decide⟩)
        - (FloatOps.sitofp (F := Ideal) .f32 (x6 (ix2 P ⟨2, by decide⟩)) * Ideal.ofBits .f32 0x3E23D70A#32
            + Ideal.ofBits .f32 0xC21E6666#32) := by
  rw [val_main_v44_apply, val_main_v31_apply, val_main_v22_apply, val_main_v21_apply, val_main_v0_apply,
    val_main_v30_apply, val_main_v29_apply, val_main_v27_apply, val_main_v25_apply, val_main_v24_apply,
    val_main_v23_apply, val_main_v9_apply, val_main_v26_apply, val_main_cst_2_apply, val_main_v28_apply,
    val_main_cst_3_apply]
  have hP := P.isLt
  have ht := t.isLt
  have e0 : idx_main_v0 (idx_main_v21 (idx_main_v22 (idx_main_v44 (ix3 P t i)))) = ix3 P t ⟨1, by decide⟩ :=
    funext fun a => Fin.ext (by
      match a with
      | ⟨0, _⟩ => show (P.val * 32 + t.val) / 32 = P.val; omega
      | ⟨1, _⟩ => show (P.val * 32 + t.val) / 1 % 32 = t.val; omega
      | ⟨2, _⟩ => rfl)
  have e6 : idx_main_v23 (idx_main_v24 (idx_main_v25 (idx_main_v30 (idx_main_v44 (ix3 P t i))))) = ix2 P ⟨2, by decide⟩ :=
    funext fun a => Fin.ext (by
      match a with
      | ⟨0, _⟩ => show P.val / 1 = P.val; omega
      | ⟨1, _⟩ => rfl)
  rw [e0, e6]
  rfl

/-- the third centre offset: channel 2 against the cell centre from coordinate column 1 -/
theorem ref_c2 (x0 : (⟨S80000x32x20, .f32⟩ : BufTy).Contents (Elt Ideal)) (x6 : (⟨S80000x4, .i32⟩ : BufTy).Contents (Elt Ideal)) (P : Fin 80000) (t : Fin 32) (i : Fin 1) :
    val_main_v45 (F := Ideal) x0 x6 (ix3 P t i)
      = x0 (ix3 P t ⟨2, by decide⟩)
        - (FloatOps.sitofp (F := Ideal) .f32 (x6 (ix2 P ⟨1, by decide⟩)) * Ideal.ofBits .f32 0x40800000#32
            + Ideal.ofBits .f32 0xBF800000#32) := by
  rw [val_main_v45_apply, val_main_v42_apply, val_main_v33_apply, val_main_v32_apply, val_main_v0_apply,
    val_main_v41_apply, val_main_v40_apply, val_main_v38_apply, val_main_v36_apply, val_main_v35_apply,
    val_main_v34_apply, val_main_v9_apply, val_main_v37_apply, val_main_cst_4_apply, val_main_v39_apply,
    val_main_cst_5_apply]
  have hP := P.isLt
  have ht := t.isLt
  have e0 : idx_main_v0 (idx_main_v32 (idx_main_v33 (idx_main_v45 (ix3 P t i)))) = ix3 P t ⟨2, by decide⟩ :=
    funext fun a => Fin.ext (by
      match a with
      | ⟨0, _⟩ => show (P.val * 32 + t.val) / 32 = P.val; omega
      | ⟨1, _⟩ => show (P.val * 32 + t.val) / 1 % 32 = t.val; omega
      | ⟨2, _⟩ => rfl)
  have e6 : idx_main_v34 (idx_main_v35 (idx_main_v36 (idx_main_v41 (idx_main_v45 (ix3 P t i))))) = ix2 P ⟨1, by decide⟩ :=
    funext fun a => Fin.ext (by
      match a with
      | ⟨0, _⟩ => show P.val / 1 = P.val; omega
      | ⟨1, _⟩ => rfl)
  rw [e0, e6]
  rfl

/-- the three centre offsets joined along the last axis -/
theorem ref_centre (x0 : (⟨S80000x32x20, .f32⟩ : BufTy).Contents (Elt Ideal)) (x6 : (⟨S80000x4, .i32⟩ : BufTy).Contents (Elt Ideal)) (P : Fin 80000) (t : Fin 32) (i : Fin 3) :
    val_main_v46 (F := Ideal) x0 x6 (ix3 P t i)
      = Cert.Pfn.Spec.centre (fun t k => x0 (ix3 P t k)) (fun k => x6 (ix2 P k)) t i := by
  unfold val_main_v46
  refine (concat3_last_apply (a := 1) (b := 1) (c := 1) (d := 3) rfl _ _ _ _ P t i).trans ?_
  unfold Cert.Pfn.Spec.centre
  refine cat3_congr _ ?_ ?_ ?_ i
  · intro j; exact ref_c0 x0 x6 P t j
  · intro j; exact ref_c1 x0 x6 P t j
  · intro j; exact ref_c2 x0 x6 P t j

/-- the 26 features: the 20 channels, the 3 mean offsets, the 3 centre offsets, joined along the last axis -/
theorem ref_feat (x0 : (⟨S80000x32x20, .f32⟩ : BufTy).Contents (Elt Ideal)) (x6 : (⟨S80000x4, .i32⟩ : BufTy).Contents (Elt Ideal)) (x7 : (⟨S80000, .i32⟩ : BufTy).Contents (Elt Ideal)) (P : Fin 80000) (t : Fin 32) (c : Fin 26) :
    val_main_v47 (F := Ideal) x0 x6 x7 (ix3 P t c)
      = Cert.Pfn.Spec.feat (fun t k => x0 (ix3 P t k)) (FloatOps.sitofp (F := Ideal) .f32 (x7 (ix1 P))) (fun k => x6 (ix2 P k)) t c := by
  unfold val_main_v47
  refine (concat3_last_apply (a := 20) (b := 3) (c := 3) (d := 26) rfl _ _ _ _ P t c).trans ?_
  unfold Cert.Pfn.Spec.feat
  refine cat3_congr _ ?_ ?_ ?_ c
  · intro j; rfl
  · intro j; exact ref_cluster x0 x7 P t j
  · intro j; exact ref_centre x0 x6 P t j

/-- the linear layer: the contraction over the 26 features against row `o` of the weights -/
theorem ref_lin (x0 : (⟨S80000x32x20, .f32⟩ : BufTy).Contents (Elt Ideal)) (x1 : (⟨S64x26, .f32⟩ : BufTy).Contents (Elt Ideal)) (x6 : (⟨S80000x4, .i32⟩ : BufTy).Contents (Elt Ideal)) (x7 : (⟨S80000, .i32⟩ : BufTy).Contents (Elt Ideal)) (P : Fin 80000) (t : Fin 32) (o : Fin 64) :
    val_main_v48 (F := Ideal) x0 x1 x6 x7 (ix3 P t o)
      = Cert.Pfn.Spec.lin (fun t k => x0 (ix3 P t k)) (FloatOps.sitofp (F := Ideal) .f32 (x7 (ix1 P))) (fun k => x6 (ix2 P k)) (fun c => x1 (ix2 o c)) t := by
  rw [val_main_v48_apply]
  unfold Cert.Pfn.Spec.lin
  refine Finset.sum_congr rfl fun k _ => ?_
  have el : lidx_main_v48 (ix3 P t o) k = ix3 P t k :=
    funext fun a => by match a with | ⟨0, _⟩ => rfl | ⟨1, _⟩ => rfl | ⟨2, _⟩ => rfl
  have er : ridx_main_v48 (ix3 P t o) k = ix2 o k :=
    funext fun a => by match a with | ⟨0, _⟩ => rfl | ⟨1, _⟩ => rfl
  rw [el, er, ref_feat]

/-- the batch norm's affine map, centred first and then scaled by `γ / sqrt (σ² + ε)` -/
theorem ref_affine (x0 : (⟨S80000x32x20, .f32⟩ : BufTy).Contents (Elt Ideal)) (x1 : (⟨S64x26, .f32⟩ : BufTy).Contents (Elt Ideal)) (x2 x3 x4 x5 : (⟨S64, .f32⟩ : BufTy).Contents (Elt Ideal)) (x6 : (⟨S80000x4, .i32⟩ : BufTy).Contents (Elt Ideal)) (x7 : (⟨S80000, .i32⟩ : BufTy).Contents (Elt Ideal)) (P : Fin 80000) (t : Fin 32) (o : Fin 64) :
    val_main_v61 (F := Ideal) x0 x1 x2 x3 x4 x5 x6 x7 (ix3 P t o)
      = (Cert.Pfn.Spec.lin (fun t k => x0 (ix3 P t k)) (FloatOps.sitofp (F := Ideal) .f32 (x7 (ix1 P))) (fun k => x6 (ix2 P k)) (fun c => x1 (ix2 o c)) t - x4 (ix1 o))
          * Ideal.div (x2 (ix1 o)) (Ideal.sqrt (x5 (ix1 o) + Ideal.ofBits .f32 0x3A83126F#32))
        + x3 (ix1 o) := by
  rw [val_main_v61_apply, val_main_v58_apply, val_main_v51_apply, val_main_v50_apply, val_main_v49_apply,
    val_main_v57_apply, val_main_v56_apply, val_main_v55_apply, val_main_v54_apply, val_main_v53_apply,
    val_main_v52_apply, val_main_cst_6_apply, val_main_v60_apply, val_main_v59_apply, ref_lin]
  have e4 : idx_main_v49 (idx_main_v50 (ix3 P t o)) = ix1 o := funext fun a => by match a with | ⟨0, _⟩ => rfl
  have e2 : idx_main_v56 (idx_main_v57 (ix3 P t o)) = ix1 o := funext fun a => by match a with | ⟨0, _⟩ => rfl
  have e3 : idx_main_v59 (idx_main_v60 (ix3 P t o)) = ix1 o := funext fun a => by match a with | ⟨0, _⟩ => rfl
  rw [e4, e2, e3]
  rfl

/-- the pooled features: the maximum, from `-∞`, over the pillar's 32 points of the rectified batch norm output -/
theorem ref_pv (x0 : (⟨S80000x32x20, .f32⟩ : BufTy).Contents (Elt Ideal)) (x1 : (⟨S64x26, .f32⟩ : BufTy).Contents (Elt Ideal)) (x2 x3 x4 x5 : (⟨S64, .f32⟩ : BufTy).Contents (Elt Ideal)) (x6 : (⟨S80000x4, .i32⟩ : BufTy).Contents (Elt Ideal)) (x7 : (⟨S80000, .i32⟩ : BufTy).Contents (Elt Ideal)) (P : Fin 80000) (o : Fin 64) :
    val_main_v63 (F := Ideal) x0 x1 x2 x3 x4 x5 x6 x7 (ix2 P o)
      = Cert.Pfn.Spec.outR (fun t k => x0 (ix3 P t k)) (FloatOps.sitofp (F := Ideal) .f32 (x7 (ix1 P))) (fun k => x6 (ix2 P k)) (fun c => x1 (ix2 o c)) (x2 (ix1 o)) (x3 (ix1 o)) (x4 (ix1 o)) (x5 (ix1 o)) := by
  have hR : S80000x32x64.Reduces [1] S80000x64 := by decide
  unfold val_main_v63
  refine (Host.reduce_eq_fold_single FloatOps.maximumf _ _ reducesTo_S80000x32x64_S80000x64_d1 hR h_S_ (ix2 P o)).trans ?_
  unfold Cert.Pfn.Spec.outR
  refine congrArg (fun f : Fin 32 → EReal =>
    (Finset.univ : Finset (Fin 32)).fold max (Ideal.ofBits .f32 0xFF800000#32) f) (funext fun (t : Fin 32) => ?_)
  have el : hR.lift (ix2 P o) t = ix3 P t o :=
    funext fun a => Fin.ext (by match a with | ⟨0, _⟩ => rfl | ⟨1, _⟩ => rfl | ⟨2, _⟩ => rfl)
  show val_main_v62 (F := Ideal) x0 x1 x2 x3 x4 x5 x6 x7 (hR.lift (ix2 P o) t) = _
  rw [el, val_main_v62_apply, ref_affine, val_main_call0_v0_apply, val_main_call0_cst_apply]
  rfl

end Cert.Pfn.RefPv
end
-- ==== Proof.RefTail.lean ====
import proofs.«135140_j28037546508649_1_alg».proof.Proof.Gen.ReferenceIdeal.Read
import proofs.«135140_j28037546508649_1_alg».proof.Proof.Tail

/-!
# The reference's result is the scatter of its pooled features

After the pooled features the reference computes each row's cell index from the integer coordinates, scatters the rows
into a zero grid, transposes and recasts. These are, operation for operation, the steps of the one function `tail`:
with the pooled features kept as an opaque array, unfolding both sides leaves the same term.
-/

noncomputable section
namespace Cert.Pfn.RefTail
open Idealize.ShloMosaic Cert.ReferenceIdeal Cert.ReferenceIdeal.Read

set_option maxHeartbeats 400000 in
/-- the reference's result stage is the scatter-to-grid function of the coordinates and of the pooled features stage -/
theorem ref_tail (x0 : (⟨S80000x32x20, .f32⟩ : BufTy).Contents (Elt Ideal)) (x1 : (⟨S64x26, .f32⟩ : BufTy).Contents (Elt Ideal)) (x2 x3 x4 x5 : (⟨S64, .f32⟩ : BufTy).Contents (Elt Ideal)) (x6 : (⟨S80000x4, .i32⟩ : BufTy).Contents (Elt Ideal)) (x7 : (⟨S80000, .i32⟩ : BufTy).Contents (Elt Ideal)) :
    Cert.ReferenceIdeal.Read.val_main_v92 (F := Ideal) x0 x1 x2 x3 x4 x5 x6 x7
      = Cert.Pfn.Tail.tail x6 (Cert.ReferenceIdeal.Read.val_main_v63 (F := Ideal) x0 x1 x2 x3 x4 x5 x6 x7) := by
  unfold val_main_v92 val_main_v91 val_main_v90
  generalize val_main_v63 (F := Ideal) x0 x1 x2 x3 x4 x5 x6 x7 = pv
  unfold val_main_v89 val_main_v88 val_main_v87 val_main_v86 val_main_v85 val_main_v84 val_main_c_12 val_main_v83 val_main_v82 val_main_c_11 val_main_v81 val_main_v80 val_main_v79 val_main_c_10 val_main_v78 val_main_v77 val_main_c_9 val_main_v76 val_main_cst_8 val_main_v75 val_main_v74 val_main_v73 val_main_v72 val_main_v71 val_main_v70 val_main_v69 val_main_v68 val_main_c val_main_v67 val_main_v66 val_main_v65 val_main_v64
  unfold Cert.Pfn.Tail.tail
  rfl

end Cert.Pfn.RefTail
end
-- ==== Proof.RefRun.lean ====
import proofs.«135140_j28037546508649_1_alg».proof.Proof.Gen.ReferenceIdeal.Read
import proofs.«135140_j28037546508649_1_alg».proof.Proof.RefPv
import proofs.«135140_j28037546508649_1_alg».proof.Proof.RefTail
import proofs.«135140_j28037546508649_1_alg».proof.Proof.Tail
import proofs.«135140_j28037546508649_1_alg».proof.Proof.Spec
import Idealize.ShloMosaic.Lib.ValueIdx

/-!
# The reference's run, in the specification's terms

Every weakly fair execution of the reference program terminates with its eight arguments unchanged and its result
equal to the scatter-to-grid function applied to the coordinates argument and to the array whose entry at pillar P and
output channel o is the specification's pooled feature (batch norm centred first) of pillar P's rows, point count and
coordinates under channel o's weights and batch-norm parameters. The scatter-to-grid function and the pooled features
are never opened here: the result is rewritten by the named equalities only.
-/

noncomputable section

namespace Cert.Pfn.RefRun

open Idealize.ShloMosaic Idealize.ShloMosaic.TcCoe Idealize.ShloMosaic.ValueIdx Idealize.SL.Sem Cert.ReferenceIdeal

/-- The pooled features of every pillar, the batch norm centred first. -/
def pooledR (a0 : Vec Ideal S80000x32x20 .f32) (a1 : Vec Ideal S64x26 .f32) (a2 a3 a4 a5 : Vec Ideal S64 .f32) (a6 : Vec Ideal S80000x4 .i32) (a7 : Vec Ideal S80000 .i32) : Vec Ideal S80000x64 .f32 :=
  fun i => Cert.Pfn.Spec.outR (fun t k => a0 (ix3 (i 0) t k)) (FloatOps.sitofp (F := Ideal) .f32 (a7 (ix1 (i 0)))) (fun k => a6 (ix2 (i 0) k)) (fun c => a1 (ix2 (i 1) c)) (a2 (ix1 (i 1))) (a3 (ix1 (i 1))) (a4 (ix1 (i 1))) (a5 (ix1 (i 1)))

/-- The reference's pooled-features stage is `pooledR` of the arguments: at (P, o) both are the specification's
    pooled feature of pillar P at channel o. -/
theorem val_v63_eq (x0 : (⟨S80000x32x20, .f32⟩ : BufTy).Contents (Elt Ideal)) (x1 : (⟨S64x26, .f32⟩ : BufTy).Contents (Elt Ideal)) (x2 x3 x4 x5 : (⟨S64, .f32⟩ : BufTy).Contents (Elt Ideal)) (x6 : (⟨S80000x4, .i32⟩ : BufTy).Contents (Elt Ideal)) (x7 : (⟨S80000, .i32⟩ : BufTy).Contents (Elt Ideal)) :
    Cert.ReferenceIdeal.Read.val_main_v63 (F := Ideal) x0 x1 x2 x3 x4 x5 x6 x7 = pooledR x0 x1 x2 x3 x4 x5 x6 x7 :=
  funext fun i => by
    obtain ⟨P, o, rfl⟩ : ∃ (P : Fin 80000) (o : Fin 64), i = ix2 P o := ⟨i 0, i 1, eq_ix2 i⟩
    exact Cert.Pfn.RefPv.ref_pv x0 x1 x2 x3 x4 x5 x6 x7 P o

/-- The result term of the reference's run is the scatter to the grid of `pooledR` of the argument buffers. -/
theorem res_eq (m : (ℓ : Loc nD τ sig) → Buf (Elt Ideal) ℓ) (c : Dev nD) :
    Cert.ReferenceIdeal.Value.res_main_v92 m c
      = Cert.Pfn.Tail.tail (m ((c.tc : Thread nD τ).loc main_arg6)) (pooledR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (Cert.ReferenceIdeal.Read.val_main_v92_eq m c).trans
    ((Cert.Pfn.RefTail.ref_tail _ _ _ _ _ _ _ _).trans
      (congrArg (Cert.Pfn.Tail.tail _) (val_v63_eq _ _ _ _ _ _ _ _)))

/-- On every device, from any memory with zero counters: every weakly fair execution of the reference terminates with
    the result at the scatter to the grid of the pooled features and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v92) = Cert.Pfn.Tail.tail (m ((c.tc : Thread nD τ).loc main_arg6)) (pooledR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run Cert.ReferenceIdeal.defs _ _).mono (fun _ h c => ⟨(h c).1.trans (res_eq m c), (h c).2⟩)
    (Cert.ReferenceIdeal.Value.run (F := Ideal) m ρ)

end Cert.Pfn.RefRun

end
-- ==== Proof.lean ====
/- A pillar feature network followed by a scatter to a grid of cells, computed two ways.

   Both programs take 80000 pillars of 32 points of 20 channels, integer cell coordinates, point counts, a 64 × 26
   weight matrix and the four vectors of an inference-mode batch norm. For every point they form 26 features (the
   channels, the first three channels less their mean over the pillar, the first three channels less the cell's
   centre), apply the linear layer, the batch norm and a rectifier, take the maximum over the pillar's points, and
   scatter the 80000 rows of 64 channels to a zero-initialised grid by the cell coordinates.

   The kernel works on 400 blocks of 200 pillars and folds the batch norm: `h · s + (b - mu · s)` with
   `s = g · rsqrt (v + ε)`. The reference works on whole arrays and centres first: `(h - mu) · (g / sqrt (v + ε)) + b`.
   On the extended reals the two agree for every `h` (the infinities included) once `g`, `b`, `mu`, `v` are real and
   `v ≥ 0` — which is what the precondition says of these four inputs; no other input needs to be finite. Everything
   before the batch norm (sums, quotient by the point count, the matrix product as a sum over the 26 features) is the
   same expression on both sides, and the scatter after it is one function applied to equal arguments. -/
import proofs.«135140_j28037546508649_1_alg».proof.Defs
import proofs.«135140_j28037546508649_1_alg».proof.Proof.Gen.Kernel
import proofs.«135140_j28037546508649_1_alg».proof.Proof.Gen.Kernel.Skeleton
import proofs.«135140_j28037546508649_1_alg».proof.Proof.Gen.Kernel.Launch
import proofs.«135140_j28037546508649_1_alg».proof.Proof.Gen.Kernel.Points
import proofs.«135140_j28037546508649_1_alg».proof.Proof.Gen.Kernel.Frame
import proofs.«135140_j28037546508649_1_alg».proof.Proof.Gen.KernelIdeal
import proofs.«135140_j28037546508649_1_alg».proof.Proof.Gen.KernelIdeal.Skeleton
import proofs.«135140_j28037546508649_1_alg».proof.Proof.Gen.KernelIdeal.Launch
import proofs.«135140_j28037546508649_1_alg».proof.Proof.Gen.KernelIdeal.Points
import proofs.«135140_j28037546508649_1_alg».proof.Proof.Gen.KernelIdeal.Frame
import proofs.«135140_j28037546508649_1_alg».proof.Proof.Gen.ReferenceIdeal
import proofs.«135140_j28037546508649_1_alg».proof.Proof.Gen.ReferenceIdeal.Run
import proofs.«135140_j28037546508649_1_alg».proof.Proof.Gen.ReferenceIdeal.Read
import proofs.«135140_j28037546508649_1_alg».proof.Proof.Gen.Pre_finite_inputs
import proofs.«135140_j28037546508649_1_alg».proof.Proof.PreFacts
import proofs.«135140_j28037546508649_1_alg».proof.Proof.Bridge
import proofs.«135140_j28037546508649_1_alg».proof.Proof.KernelPv
import proofs.«135140_j28037546508649_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- Both programs end with the scatter of the pooled features; the pooled features agree entry by entry, the folded
    and the centred batch norm being one function where the four parameters are real and the variance nonnegative. -/
theorem algebraic : Cert.algebraic_KernelIdeal_ReferenceIdeal := by
  intro m ρ m' ρ' hpre hagree
  refine ⟨_, Cert.Pfn.KernelPv.run m ρ, ?_⟩
  refine (θ_run Cert.ReferenceIdeal.defs _ _).mono (fun _ h c => ⟨(h c).1.trans ?_, (h c).2⟩)
    (Cert.Pfn.RefRun.run m' ρ')
  obtain ⟨h0, h1, h2, h3, h4, h5, h6, h7⟩ := hagree c
  obtain ⟨hg, hb, hmu, hv⟩ := Cert.Pfn.PreFacts.of_pre _ _ _ _ _ _ _ _ (hpre c)
  rw [h0, h1, h2, h3, h4, h5, h6, h7]
  refine congrArg (Cert.Pfn.Tail.tail _) (funext fun i => ?_)
  exact (Cert.Pfn.Bridge.out_eq _ _ _ _ _ _ _ _ (hg _) (hb _) (hmu _) (hv _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
